-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x28x28x256 : Shape := ⟨5, ![8, 16, 28, 28, 256]⟩
abbrev S256 : Shape := ⟨1, ![256]⟩
abbrev S256x128x784 : Shape := ⟨3, ![256, 128, 784]⟩
abbrev S_ : Shape := ⟨0, ![]⟩

class Facts : Prop where
  bcast_S_S8x16x28x28x256 : S_.BroadcastsInDim S8x16x28x28x256 (![] : Fin 0 → Fin S8x16x28x28x256.rank)
  reducesTo_S8x16x28x28x256_S_d0_1_2_3_4 : S8x16x28x28x256.ReducesTo [0, 1, 2, 3, 4] S_
  h_S_ : 0 < S_.numel
  bcast_S_S256 : S_.BroadcastsInDim S256 (![] : Fin 0 → Fin S256.rank)
  reducesTo_S256_S_d0 : S256.ReducesTo [0] S_
  bcast_S_S256x128x784 : S_.BroadcastsInDim S256x128x784 (![] : Fin 0 → Fin S256x128x784.rank)
  reducesTo_S256x128x784_S_d0_1_2 : S256x128x784.ReducesTo [0, 1, 2] S_

variable [Facts]

def fn_part1 {F : FTy → Type} [FloatOps F] (main_v13 : IVec S_ 1) (main_v16 : IVec S256x128x784 1) : IVec S_ 1 :=
  let main_c_5 : IVec S_ 1 := constantI S_ 1 1#1
  let main_v17 : IVec S_ 1 := (fun x v => Host.reduce IntOp.andi x v reducesTo_S256x128x784_S_d0_1_2 h_S_) main_v16 main_c_5
  let main_v18 : IVec S_ 1 := andi main_v13 main_v17
  main_v18

def fn {F : FTy → Type} [FloatOps F] (main_arg0 : FVec F S8x16x28x28x256 .f32) (main_arg1 : FVec F S256 .f32) (main_arg2 : FVec F S256 .f32) (main_arg3 : FVec F S256x128x784 .f32) : IVec S_ 1 :=
  let main_v0 : FVec F S8x16x28x28x256 .f32 := Host.absf main_arg0
  let main_cst : FVec F S_ .f32 := constant S_ .f32 0x7F800000#32
  let main_v1 : FVec F S8x16x28x28x256 .f32 := broadcastInDim S8x16x28x28x256 ![] bcast_S_S8x16x28x28x256 main_cst
  let main_v2 : IVec S8x16x28x28x256 1 := cmpf .olt main_v0 main_v1
  let main_c : IVec S_ 1 := constantI S_ 1 1#1
  let main_v3 : IVec S_ 1 := (fun x v => Host.reduce IntOp.andi x v reducesTo_S8x16x28x28x256_S_d0_1_2_3_4 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128x784 .f32 := Host.absf main_arg3
  let main_cst_4 : FVec F S_ .f32 := constant S_ .f32 0x7F800000#32
  let main_v15 : FVec F S256x128x784 .f32 := broadcastInDim S256x128x784 ![] bcast_S_S256x128x784 main_cst_4
  let main_v16 : IVec S256x128x784 1 := cmpf .olt main_v14 main_v15
  fn_part1 (F := F) main_v13 main_v16
-- ==== Kernel.lean ====
abbrev S8x16x28x28x256 : Shape := ⟨5, ![8, 16, 28, 28, 256]⟩
abbrev S256 : Shape := ⟨1, ![256]⟩
abbrev S256x128x784 : Shape := ⟨3, ![256, 128, 784]⟩
abbrev S1x256 : Shape := ⟨2, ![1, 256]⟩
abbrev S1x8x28x28x256 : Shape := ⟨5, ![1, 8, 28, 28, 256]⟩
abbrev S256x8x784 : Shape := ⟨3, ![256, 8, 784]⟩
abbrev S8x28x28x256 : Shape := ⟨4, ![8, 28, 28, 256]⟩
abbrev S8x28x28 : Shape := ⟨3, ![8, 28, 28]⟩
abbrev S8x28x28x1 : Shape := ⟨4, ![8, 28, 28, 1]⟩
abbrev S1x1x1x256 : Shape := ⟨4, ![1, 1, 1, 256]⟩
abbrev S256x8x28x28 : Shape := ⟨4, ![256, 8, 28, 28]⟩
abbrev S8x16x256x128 : Shape := ⟨4, ![8, 16, 256, 128]⟩
abbrev S8x128x784 : Shape := ⟨3, ![8, 128, 784]⟩
abbrev S8x16x8x128 : Shape := ⟨4, ![8, 16, 8, 128]⟩
abbrev S8x128x128 : Shape := ⟨3, ![8, 128, 128]⟩
abbrev S8x128 : Shape := ⟨2, ![8, 128]⟩
abbrev S8x128x1 : Shape := ⟨3, ![8, 128, 1]⟩
abbrev S8x1x128 : Shape := ⟨3, ![8, 1, 128]⟩
abbrev S8x8x16x128 : Shape := ⟨4, ![8, 8, 16, 128]⟩
abbrev S8x16x8 : Shape := ⟨3, ![8, 16, 8]⟩
abbrev S8x16x8x1 : Shape := ⟨4, ![8, 16, 8, 1]⟩
abbrev S256x128x128 : Shape := ⟨3, ![256, 128, 128]⟩

abbrev nBuf : Space → Nat
  | .hbm => 10
  | .vmem => 18
  | .smem => 0
  | _ => 0

abbrev bufTy : (tb : Table) → Fin (tcTables nBuf tb) → BufTy
  | .hbm, ⟨0, _⟩ => ⟨S8x16x28x28x256, .f32⟩
  | .hbm, ⟨1, _⟩ => ⟨S256, .f32⟩
  | .hbm, ⟨2, _⟩ => ⟨S256, .f32⟩
  | .hbm, ⟨3, _⟩ => ⟨S256x128x784, .f32⟩
  | .hbm, ⟨4, _⟩ => ⟨S1x256, .f32⟩
  | .hbm, ⟨5, _⟩ => ⟨S1x256, .f32⟩
  | .hbm, ⟨6, _⟩ => ⟨S256x128x784, .f32⟩
  | .hbm, ⟨7, _⟩ => ⟨S8x16x256x128, .f32⟩
  | .hbm, ⟨8, _⟩ => ⟨S8x16x256x128, .f32⟩
  | .hbm, ⟨9, _⟩ => ⟨S256x128x128, .f32⟩
  | .local _ .vmem, ⟨0, _⟩ => ⟨S1x8x28x28x256, .f32⟩
  | .local _ .vmem, ⟨1, _⟩ => ⟨S1x8x28x28x256, .f32⟩
  | .local _ .vmem, ⟨2, _⟩ => ⟨S1x256, .f32⟩
  | .local _ .vmem, ⟨3, _⟩ => ⟨S1x256, .f32⟩
  | .local _ .vmem, ⟨4, _⟩ => ⟨S256x8x784, .f32⟩
  | .local _ .vmem, ⟨5, _⟩ => ⟨S256x8x784, .f32⟩
  | .local _ .vmem, ⟨6, _⟩ => ⟨S8x128x784, .f32⟩
  | .local _ .vmem, ⟨7, _⟩ => ⟨S8x128x784, .f32⟩
  | .local _ .vmem, ⟨8, _⟩ => ⟨S8x128x784, .f32⟩
  | .local _ .vmem, ⟨9, _⟩ => ⟨S8x128x784, .f32⟩
  | .local _ .vmem, ⟨10, _⟩ => ⟨S8x16x8x128, .f32⟩
  | .local _ .vmem, ⟨11, _⟩ => ⟨S8x16x8x128, .f32⟩
  | .local _ .vmem, ⟨12, _⟩ => ⟨S8x16x8x128, .f32⟩
  | .local _ .vmem, ⟨13, _⟩ => ⟨S8x16x8x128, .f32⟩
  | .local _ .vmem, ⟨14, _⟩ => ⟨S8x128x784, .f32⟩
  | .local _ .vmem, ⟨15, _⟩ => ⟨S8x128x784, .f32⟩
  | .local _ .vmem, ⟨16, _⟩ => ⟨S8x128x128, .f32⟩
  | .local _ .vmem, ⟨17, _⟩ => ⟨S8x128x128, .f32⟩
  | _, _ => ⟨S8x16x28x28x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x8x28x28x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x8x784 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage1_0 : Fin 2 → Memref sig .tc .vmem S8x128x784 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128x784 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x16x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x16x8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8x128x784 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  shapeCasts_S256_S1x256 : S256.ShapeCasts S1x256
  inb_S1x8x28x28x256_S1x8x28x28x256_0_0_0_0_0 : ∀ a, (![0, 0, 0, 0, 0] : Fin 5 → Nat) a + S1x8x28x28x256.size a ≤ S1x8x28x28x256.size a
  h_S1x8x28x28x256 : 0 < S1x8x28x28x256.numel
  shapeCasts_S1x8x28x28x256_S8x28x28x256 : S1x8x28x28x256.ShapeCasts S8x28x28x256
  reduces_S8x28x28x256_S8x28x28 : S8x28x28x256.Reduces [3] S8x28x28
  shapeCasts_S8x28x28_S8x28x28x1 : S8x28x28.ShapeCasts S8x28x28x1
  broadcasts_S8x28x28x1_S8x28x28x256 : S8x28x28x1.Broadcasts S8x28x28x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x1x256 : S1x256.ShapeCasts S1x1x1x256
  broadcasts_S1x1x1x256_S8x28x28x256 : S1x1x1x256.Broadcasts S8x28x28x256
  transposes_S8x28x28x256_p3_0_1_2_S256x8x28x28 : S8x28x28x256.Transposes [3, 0, 1, 2] S256x8x28x28
  shapeCasts_S256x8x28x28_S256x8x784 : S256x8x28x28.ShapeCasts S256x8x784
  inb_S256x8x784_S256x8x784_0_0_0 : ∀ a, (![0, 0, 0] : Fin 3 → Nat) a + S256x8x784.size a ≤ S256x8x784.size a
  h_S256x8x784 : 0 < S256x8x784.numel
  inb_S8x128x784_S8x128x784_0_0_0 : ∀ a, (![0, 0, 0] : Fin 3 → Nat) a + S8x128x784.size a ≤ S8x128x784.size a
  h_S8x128x784 : 0 < S8x128x784.numel
  shapeCasts_S8x128x784_S8x128x784 : S8x128x784.ShapeCasts S8x128x784
  bitsLt_bf16_f32 : FTy.bits .bf16 < FTy.bits .f32
  reduces_S8x128x784_S8x128 : S8x128x784.Reduces [2] S8x128
  shapeCasts_S8x128_S8x128x1 : S8x128.ShapeCasts S8x128x1
  shapeCasts_S8x128_S8x1x128 : S8x128.ShapeCasts S8x1x128
  broadcasts_S8x128x1_S8x128x128 : S8x128x1.Broadcasts S8x128x128
  broadcasts_S8x1x128_S8x128x128 : S8x1x128.Broadcasts S8x128x128
  shapeCasts_S8x128x128_S8x8x16x128 : S8x128x128.ShapeCasts S8x8x16x128
  transposes_S8x8x16x128_p1_2_0_3_S8x16x8x128 : S8x8x16x128.Transposes [1, 2, 0, 3] S8x16x8x128
  inb_S8x16x8x128_S8x16x8x128_0_0_0_0 : ∀ a, (![0, 0, 0, 0] : Fin 4 → Nat) a + S8x16x8x128.size a ≤ S8x16x8x128.size a
  h_S8x16x8x128 : 0 < S8x16x8x128.numel
  reduces_S8x16x8x128_S8x16x8 : S8x16x8x128.Reduces [3] S8x16x8
  shapeCasts_S8x16x8_S8x16x8x1 : S8x16x8.ShapeCasts S8x16x8x1
  broadcasts_S8x16x8x1_S8x16x8x128 : S8x16x8x1.Broadcasts S8x16x8x128
  iota_S8x128x128_d1_w32 : S8x128x128.Iotas .tc 32 [1]
  iota_S8x128x128_d2_w32 : S8x128x128.Iotas .tc 32 [2]
  inb_S8x128x128_S8x128x128_0_0_0 : ∀ a, (![0, 0, 0] : Fin 3 → Nat) a + S8x128x128.size a ≤ S8x128x128.size a
  h_S8x128x128 : 0 < S8x128x128.numel
  dot_S8x128x784_S8x128x784_S8x128x128_2_2_1_1_0_0_wf : DotDims.WF S8x128x784 S8x128x784 S8x128x128 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x28x28x256.size a ≤ S8x16x28x28x256.size a
  hwx0_0 : ∀ i : grid0.Coords, EltTy.bits .f32 = 32 ∨ (Rect.block (s := S8x16x28x28x256) S1x8x28x28x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8x784.size a ≤ S256x128x784.size a
  hwx0_3 : ∀ i : grid0.Coords, EltTy.bits .f32 = 32 ∨ (Rect.block (s := S256x128x784) S256x8x784.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x784.size a ≤ S256x128x784.size a
  hwx1_0 : ∀ i : grid1.Coords, EltTy.bits .f32 = 32 ∨ (Rect.block (s := S256x128x784) S8x128x784.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128x784.size a ≤ S256x128x784.size a
  hwx1_1 : ∀ i : grid1.Coords, EltTy.bits .f32 = 32 ∨ (Rect.block (s := S256x128x784) S8x128x784.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x16x8x128.size a ≤ S8x16x256x128.size a
  hwx1_2 : ∀ i : grid1.Coords, EltTy.bits .f32 = 32 ∨ (Rect.block (s := S8x16x256x128) S8x16x8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x16x8x128.size a ≤ S8x16x256x128.size a
  hwx1_3 : ∀ i : grid1.Coords, EltTy.bits .f32 = 32 ∨ (Rect.block (s := S8x16x256x128) S8x16x8x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x128x784.size a ≤ S256x128x784.size a
  hwx2_0 : ∀ i : grid2.Coords, EltTy.bits .f32 = 32 ∨ (Rect.block (s := S256x128x784) S8x128x784.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x128x128.size a ≤ S256x128x128.size a
  hwx2_1 : ∀ i : grid2.Coords, EltTy.bits .f32 = 32 ∨ (Rect.block (s := S256x128x128) S8x128x128.size (cc2_transform_1 i) (hinb2_1 i)).WholeWords (EltTy.packing .f32)

variable [Facts₀]

def dot_S8x128x784_S8x128x784_S8x128x128_2_2_1_1_0_0 : DotDims S8x128x784 S8x128x784 S8x128x128 where
  lhsContracting := [2]
  rhsContracting := [2]
  lhsNonContracting := [1]
  rhsNonContracting := [1]
  lhsBatch := [0]
  rhsBatch := [0]
  wf := dot_S8x128x784_S8x128x784_S8x128x128_2_2_1_1_0_0_wf

abbrev win0_0 : Pipeline.Window sig grid0 :=
  Pipeline.Window.ofSpec (Memref.whole main_arg0) S1x8x28x28x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x8x784.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S8x128x784.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S8x128x784.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S8x16x8x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S8x16x8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg3) S8x128x784.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S8x128x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S8x16x28x28x256 : Shape := ⟨5, ![8, 16, 28, 28, 256]⟩
abbrev S256 : Shape := ⟨1, ![256]⟩
abbrev S256x128x784 : Shape := ⟨3, ![256, 128, 784]⟩
abbrev S_ : Shape := ⟨0, ![]⟩
abbrev S8x16x28x28 : Shape := ⟨4, ![8, 16, 28, 28]⟩
abbrev S8x16x28x28x1 : Shape := ⟨5, ![8, 16, 28, 28, 1]⟩
abbrev S1x1x1x1x256 : Shape := ⟨5, ![1, 1, 1, 1, 256]⟩
abbrev S256x8x16x28x28 : Shape := ⟨5, ![256, 8, 16, 28, 28]⟩
abbrev S256x128 : Shape := ⟨2, ![256, 128]⟩
abbrev S256x128x1 : Shape := ⟨3, ![256, 128, 1]⟩
abbrev S256x1x128 : Shape := ⟨3, ![256, 1, 128]⟩
abbrev S256x128x128 : Shape := ⟨3, ![256, 128, 128]⟩
abbrev S256x8x16x128 : Shape := ⟨4, ![256, 8, 16, 128]⟩
abbrev S8x16x256x128 : Shape := ⟨4, ![8, 16, 256, 128]⟩
abbrev S8x16x256 : Shape := ⟨3, ![8, 16, 256]⟩
abbrev S8x16x256x1 : Shape := ⟨4, ![8, 16, 256, 1]⟩

abbrev nBuf : Space → Nat
  | .hbm => 94
  | .vmem => 0
  | .smem => 0
  | _ => 0

abbrev bufTy : (tb : Table) → Fin (tcTables nBuf tb) → BufTy
  | .hbm, ⟨0, _⟩ => ⟨S8x16x28x28x256, .f32⟩
  | .hbm, ⟨1, _⟩ => ⟨S256, .f32⟩
  | .hbm, ⟨2, _⟩ => ⟨S256, .f32⟩
  | .hbm, ⟨3, _⟩ => ⟨S256x128x784, .f32⟩
  | .hbm, ⟨4, _⟩ => ⟨S_, .f32⟩
  | .hbm, ⟨5, _⟩ => ⟨S8x16x28x28, .f32⟩
  | .hbm, ⟨6, _⟩ => ⟨S8x16x28x28x1, .f32⟩
  | .hbm, ⟨7, _⟩ => ⟨S_, .f32⟩
  | .hbm, ⟨8, _⟩ => ⟨S8x16x28x28x1, .f32⟩
  | .hbm, ⟨9, _⟩ => ⟨S8x16x28x28x1, .f32⟩
  | .hbm, ⟨10, _⟩ => ⟨S8x16x28x28x256, .f32⟩
  | .hbm, ⟨11, _⟩ => ⟨S8x16x28x28x256, .f32⟩
  | .hbm, ⟨12, _⟩ => ⟨S8x16x28x28x256, .f32⟩
  | .hbm, ⟨13, _⟩ => ⟨S_, .f32⟩
  | .hbm, ⟨14, _⟩ => ⟨S8x16x28x28, .f32⟩
  | .hbm, ⟨15, _⟩ => ⟨S8x16x28x28x1, .f32⟩
  | .hbm, ⟨16, _⟩ => ⟨S_, .f32⟩
  | .hbm, ⟨17, _⟩ => ⟨S8x16x28x28x1, .f32⟩
  | .hbm, ⟨18, _⟩ => ⟨S8x16x28x28x1, .f32⟩
  | .hbm, ⟨19, _⟩ => ⟨S8x16x28x28x256, .f32⟩
  | .hbm, ⟨20, _⟩ => ⟨S8x16x28x28x256, .f32⟩
  | .hbm, ⟨21, _⟩ => ⟨S_, .f32⟩
  | .hbm, ⟨22, _⟩ => ⟨S8x16x28x28x1, .f32⟩
  | .hbm, ⟨23, _⟩ => ⟨S8x16x28x28x1, .f32⟩
  | .hbm, ⟨24, _⟩ => ⟨S8x16x28x28x1, .f32⟩
  | .hbm, ⟨25, _⟩ => ⟨S8x16x28x28x256, .f32⟩
  | .hbm, ⟨26, _⟩ => ⟨S8x16x28x28x256, .f32⟩
  | .hbm, ⟨27, _⟩ => ⟨S1x1x1x1x256, .f32⟩
  | .hbm, ⟨28, _⟩ => ⟨S8x16x28x28x256, .f32⟩
  | .hbm, ⟨29, _⟩ => ⟨S8x16x28x28x256, .f32⟩
  | .hbm, ⟨30, _⟩ => ⟨S1x1x1x1x256, .f32⟩
  | .hbm, ⟨31, _⟩ => ⟨S8x16x28x28x256, .f32⟩
  | .hbm, ⟨32, _⟩ => ⟨S8x16x28x28x256, .f32⟩
  | .hbm, ⟨33, _⟩ => ⟨S256x8x16x28x28, .f32⟩
  | .hbm, ⟨34, _⟩ => ⟨S256x128x784, .f32⟩
  | .hbm, ⟨35, _⟩ => ⟨S256x128x784, .f32⟩
  | .hbm, ⟨36, _⟩ => ⟨S_, .f32⟩
  | .hbm, ⟨37, _⟩ => ⟨S256x128, .f32⟩
  | .hbm, ⟨38, _⟩ => ⟨S256x128x1, .f32⟩
  | .hbm, ⟨39, _⟩ => ⟨S256x128x784, .f32⟩
  | .hbm, ⟨40, _⟩ => ⟨S_, .f32⟩
  | .hbm, ⟨41, _⟩ => ⟨S256x128, .f32⟩
  | .hbm, ⟨42, _⟩ => ⟨S256x1x128, .f32⟩
  | .hbm, ⟨43, _⟩ => ⟨S256x128x128, .f32⟩
  | .hbm, ⟨44, _⟩ => ⟨S256x128x128, .f32⟩
  | .hbm, ⟨45, _⟩ => ⟨S256x128x128, .f32⟩
  | .hbm, ⟨46, _⟩ => ⟨S256x128x128, .f32⟩
  | .hbm, ⟨47, _⟩ => ⟨S_, .f32⟩
  | .hbm, ⟨48, _⟩ => ⟨S256x128x128, .f32⟩
  | .hbm, ⟨49, _⟩ => ⟨S256x128x128, .f32⟩
  | .hbm, ⟨50, _⟩ => ⟨S256x128x128, .f32⟩
  | .hbm, ⟨51, _⟩ => ⟨S_, .f32⟩
  | .hbm, ⟨52, _⟩ => ⟨S256x128x128, .f32⟩
  | .hbm, ⟨53, _⟩ => ⟨S256x128x128, .f32⟩
  | .hbm, ⟨54, _⟩ => ⟨S256x128x128, .f32⟩
  | .hbm, ⟨55, _⟩ => ⟨S256x8x16x128, .f32⟩
  | .hbm, ⟨56, _⟩ => ⟨S8x16x256x128, .f32⟩
  | .hbm, ⟨57, _⟩ => ⟨S_, .f32⟩
  | .hbm, ⟨58, _⟩ => ⟨S8x16x256x128, .f32⟩
  | .hbm, ⟨59, _⟩ => ⟨S8x16x256x128, .f32⟩
  | .hbm, ⟨60, _⟩ => ⟨S_, .f32⟩
  | .hbm, ⟨61, _⟩ => ⟨S8x16x256, .f32⟩
  | .hbm, ⟨62, _⟩ => ⟨S_, .f32⟩
  | .hbm, ⟨63, _⟩ => ⟨S8x16x256, .f32⟩
  | .hbm, ⟨64, _⟩ => ⟨S8x16x256, .f32⟩
  | .hbm, ⟨65, _⟩ => ⟨S8x16x256x1, .f32⟩
  | .hbm, ⟨66, _⟩ => ⟨S8x16x256x128, .f32⟩
  | .hbm, ⟨67, _⟩ => ⟨S8x16x256x128, .f32⟩
  | .hbm, ⟨68, _⟩ => ⟨S8x16x256x128, .f32⟩
  | .hbm, ⟨69, _⟩ => ⟨S_, .f32⟩
  | .hbm, ⟨70, _⟩ => ⟨S8x16x256, .f32⟩
  | .hbm, ⟨71, _⟩ => ⟨S8x16x256x1, .f32⟩
  | .hbm, ⟨72, _⟩ => ⟨S8x16x256x128, .f32⟩
  | .hbm, ⟨73, _⟩ => ⟨S8x16x256x128, .f32⟩
  | .hbm, ⟨74, _⟩ => ⟨S256x128x784, .f32⟩
  | .hbm, ⟨75, _⟩ => ⟨S_, .f32⟩
  | .hbm, ⟨76, _⟩ => ⟨S256x128, .f32⟩
  | .hbm, ⟨77, _⟩ => ⟨S256x128x1, .f32⟩
  | .hbm, ⟨78, _⟩ => ⟨S256x128x784, .f32⟩
  | .hbm, ⟨79, _⟩ => ⟨S_, .f32⟩
  | .hbm, ⟨80, _⟩ => ⟨S256x128, .f32⟩
  | .hbm, ⟨81, _⟩ => ⟨S256x1x128, .f32⟩
  | .hbm, ⟨82, _⟩ => ⟨S256x128x128, .f32⟩
  | .hbm, ⟨83, _⟩ => ⟨S256x128x128, .f32⟩
  | .hbm, ⟨84, _⟩ => ⟨S256x128x128, .f32⟩
  | .hbm, ⟨85, _⟩ => ⟨S256x128x128, .f32⟩
  | .hbm, ⟨86, _⟩ => ⟨S_, .f32⟩
  | .hbm, ⟨87, _⟩ => ⟨S256x128x128, .f32⟩
  | .hbm, ⟨88, _⟩ => ⟨S256x128x128, .f32⟩
  | .hbm, ⟨89, _⟩ => ⟨S256x128x128, .f32⟩
  | .hbm, ⟨90, _⟩ => ⟨S_, .f32⟩
  | .hbm, ⟨91, _⟩ => ⟨S256x128x128, .f32⟩
  | .hbm, ⟨92, _⟩ => ⟨S256x128x128, .f32⟩
  | .hbm, ⟨93, _⟩ => ⟨S256x128x128, .f32⟩
  | _, _ => ⟨S8x16x28x28x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_13 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩

abbrev nD : Nat := 1
abbrev τ : Topo := Topo.v7x

variable {F : FTy → Type} [FloatOps F]

class Facts₀ : Prop where
  reducesTo_S8x16x28x28x256_S8x16x28x28_d4 : S8x16x28x28x256.ReducesTo [4] S8x16x28x28
  h_S_ : 0 < S_.numel
  bcast_S8x16x28x28_S8x16x28x28x1_0_1_2_3 : S8x16x28x28.BroadcastsInDim S8x16x28x28x1 (![0, 1, 2, 3] : Fin 4 → Fin S8x16x28x28x1.rank)
  bcast_S_S8x16x28x28x1 : S_.BroadcastsInDim S8x16x28x28x1 (![] : Fin 0 → Fin S8x16x28x28x1.rank)
  bcast_S8x16x28x28x1_S8x16x28x28x256_0_1_2_3_4 : S8x16x28x28x1.BroadcastsInDim S8x16x28x28x256 (![0, 1, 2, 3, 4] : Fin 5 → Fin S8x16x28x28x256.rank)
  bcast_S256_S1x1x1x1x256_4 : S256.BroadcastsInDim S1x1x1x1x256 (![4] : Fin 1 → Fin S1x1x1x1x256.rank)
  bcast_S1x1x1x1x256_S8x16x28x28x256_0_1_2_3_4 : S1x1x1x1x256.BroadcastsInDim S8x16x28x28x256 (![0, 1, 2, 3, 4] : Fin 5 → Fin S8x16x28x28x256.rank)
  transposes_S8x16x28x28x256_S256x8x16x28x28_4_0_1_2_3 : S8x16x28x28x256.Transposes [4, 0, 1, 2, 3] S256x8x16x28x28
  shapeCasts_S256x8x16x28x28_S256x128x784 : S256x8x16x28x28.ShapeCasts S256x128x784
  reducesTo_S256x128x784_S256x128_d2 : S256x128x784.ReducesTo [2] S256x128
  bcast_S256x128_S256x128x1_0_1 : S256x128.BroadcastsInDim S256x128x1 (![0, 1] : Fin 2 → Fin S256x128x1.rank)
  bcast_S256x128_S256x1x128_0_2 : S256x128.BroadcastsInDim S256x1x128 (![0, 2] : Fin 2 → Fin S256x1x128.rank)
  bcast_S256x128x1_S256x128x128_0_1_2 : S256x128x1.BroadcastsInDim S256x128x128 (![0, 1, 2] : Fin 3 → Fin S256x128x128.rank)
  bcast_S256x1x128_S256x128x128_0_1_2 : S256x1x128.BroadcastsInDim S256x128x128 (![0, 1, 2] : Fin 3 → Fin S256x128x128.rank)
  bcast_S_S256x128x128 : S_.BroadcastsInDim S256x128x128 (![] : Fin 0 → Fin S256x128x128.rank)
  shapeCasts_S256x128x128_S256x8x16x128 : S256x128x128.ShapeCasts S256x8x16x128
  transposes_S256x8x16x128_S8x16x256x128_1_2_0_3 : S256x8x16x128.Transposes [1, 2, 0, 3] S8x16x256x128
  bcast_S_S8x16x256x128 : S_.BroadcastsInDim S8x16x256x128 (![] : Fin 0 → Fin S8x16x256x128.rank)
  reducesTo_S8x16x256x128_S8x16x256_d3 : S8x16x256x128.ReducesTo [3] S8x16x256
  bcast_S_S8x16x256 : S_.BroadcastsInDim S8x16x256 (![] : Fin 0 → Fin S8x16x256.rank)
  bcast_S8x16x256_S8x16x256x1_0_1_2 : S8x16x256.BroadcastsInDim S8x16x256x1 (![0, 1, 2] : Fin 3 → Fin S8x16x256x1.rank)
  bcast_S8x16x256x1_S8x16x256x128_0_1_2_3 : S8x16x256x1.BroadcastsInDim S8x16x256x128 (![0, 1, 2, 3] : Fin 4 → Fin S8x16x256x128.rank)
  dot_S256x128x784_S256x128x784_S256x128x128_2_2_1_1_0_0_wf : DotDims.WF S256x128x784 S256x128x784 S256x128x128 [2] [2] [1] [1] [0] [0]

variable [Facts₀]

def dot_S256x128x784_S256x128x784_S256x128x128_2_2_1_1_0_0 : DotDims S256x128x784 S256x128x784 S256x128x128 where
  lhsContracting := [2]
  rhsContracting := [2]
  lhsNonContracting := [1]
  rhsNonContracting := [1]
  lhsBatch := [0]
  rhsBatch := [0]
  wf := dot_S256x128x784_S256x128x784_S256x128x128_2_2_1_1_0_0_wf

class Facts : Prop extends Facts₀ where

variable [Facts]
-- ==== Proof.KernelRun.lean ====
/-
  The idealized kernel's run with every unscoped buffer named. The program is three pallas_calls in a row; the
  generated frame walks the buffer contents through them (launch memory, after the two host reshapes, after each
  region's write-backs) and keeps, of the last contents, only that the four arguments are as launched. Here the
  same run is posted with ALL of the last contents, so that the three result arrays can be read: every unscoped
  buffer ends at the last boundary's valuation.
-/
import proofs.«160886_j21612275434146_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the three calls terminates, nothing faulting, with every unscoped buffer at the
    contents the last region leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run, read at the three result arrays and the four arguments. -/
theorem run_results : θ_run defs (onTc (τ := τ) (main (F := F))) ⟨m, fun _ => 0, ρ⟩ (fun r => ∀ c : Dev nD,
      r.2.mem ((c.tc : Thread nD τ).loc main_v3_0) = W4 m ρ c (Proc.devRef .tc main_v3_0)
      ∧ r.2.mem ((c.tc : Thread nD τ).loc main_v3_1) = W4 m ρ c (Proc.devRef .tc main_v3_1)
      ∧ r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
      ⟨h c _ (mem_uc main_v3_0 (by decide)),
       h c _ (mem_uc main_v3_1 (by decide)),
       h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)
    (run_all m ρ)

end Cert.KernelIdeal.Whole

end
-- ==== Proof.Spec.lean ====
/-
  The mathematics of the three results, one entry at a time, over the extended reals.

  * `lnRow x g b c`: LayerNorm of a row `x` of 256 channels at channel `c` — the mean is the row's sum over 256, the
    variance the mean of the squared deviations, the result `(x c - mean) * rsqrt (variance + eps) * g c + b c`.
  * `distEntry a b`: the distance of two vectors of 784 coordinates from the expanded square
    `|a|^2 + |b|^2 - 2 <a, b>`, floored at a small positive constant before the root.
  * `softRow z n`: entry `n` of the softmax of `-32 z` over 128 entries, taken with the maximum subtracted.
  Constants stay as their binary32 words: both programs carry the same words, so none is ever evaluated.
-/
import Idealize.ShloMosaic.PureOps.Ideal
import Idealize.ShloMosaic.PureOps.Ideal.Laws

noncomputable section

namespace Cert.Spec

open Idealize.ShloMosaic

/-- The mean of a row of 256 entries. -/
def rowMean (x : Fin 256 → EReal) : EReal := Ideal.div (∑ k : Fin 256, x k) (Ideal.ofBits .f32 0x43800000#32)

/-- LayerNorm of a row of 256 channels, at channel `c`, with scale `g` and shift `b`. -/
def lnRow (x g b : Fin 256 → EReal) (c : Fin 256) : EReal :=
  (x c - rowMean x)
      * Ideal.rsqrt (Ideal.div (∑ k : Fin 256, (x k - rowMean x) * (x k - rowMean x)) (Ideal.ofBits .f32 0x43800000#32)
          + Ideal.ofBits .f32 0x3727C5AC#32)
      * g c + b c

/-- The squared distance of two vectors in expanded form. -/
def sqDist (a b : Fin 784 → EReal) : EReal :=
  (∑ k : Fin 784, a k * a k) + (∑ k : Fin 784, b k * b k) - Ideal.ofBits .f32 0x40000000#32 * ∑ k : Fin 784, a k * b k

/-- The floored root that ends a distance. -/
def rootFloor (y : EReal) : EReal := Ideal.sqrt (max y (Ideal.ofBits .f32 0x2B8CBCCC#32))

/-- The distance of two vectors of 784 coordinates. -/
def distEntry (a b : Fin 784 → EReal) : EReal := rootFloor (sqDist a b)

/-- The row maximum a softmax subtracts: the fold of `max` from -inf, joined once more with -inf. -/
def rowMax (y : Fin 128 → EReal) : EReal :=
  max (Ideal.ofBits .f32 0xFF800000#32) ((Finset.univ : Finset (Fin 128)).fold max (Ideal.ofBits .f32 0xFF800000#32) y)

/-- Entry `n` of the softmax of `-32 z` over a row of 128 entries. -/
def softRow (z : Fin 128 → EReal) (n : Fin 128) : EReal :=
  Ideal.div (Ideal.exp (Ideal.ofBits .f32 0xC2000000#32 * z n - rowMax fun j => Ideal.ofBits .f32 0xC2000000#32 * z j))
    (∑ l : Fin 128, Ideal.exp (Ideal.ofBits .f32 0xC2000000#32 * z l - rowMax fun j => Ideal.ofBits .f32 0xC2000000#32 * z j))

end Cert.Spec

end
-- ==== Proof.ReadsNorm.lean ====
/-
  The first call's block, one entry at a time. The body loads a block of 8 depth slices of the input (as
  1x8x28x28x256), normalises every channel row, and stores the result with the channel axis moved to the front and
  the two spatial axes merged: entry (c, d, s) of the 256x8x784 block is LayerNorm of the row at
  (d, s / 28, s % 28), at channel c. Each layout step is read at an entry first; the payload is then their chain.
-/
import proofs.«160886_j21612275434146_2_alg».proof.Proof.Gen.KernelIdeal.Skeleton
import proofs.«160886_j21612275434146_2_alg».proof.Proof.Spec
import Idealize.ShloMosaic.Lib.Pipeline.Value
import Idealize.ShloMosaic.Lib.ValueIdx
import Idealize.ShloMosaic.PureOps.Ideal.Laws

noncomputable section

namespace Cert.KernelIdeal.ReadsNorm

open Idealize.ShloMosaic Idealize.ShloMosaic.TcCoe Idealize.ShloMosaic.ValueIdx
open Cert.KernelIdeal Cert.Spec

variable {α : Type}

/-- Dropping the leading unit axis of a 1x8x28x28x256 block. -/
theorem dropLead (v : S1x8x28x28x256.Idx → α)
    (h : S1x8x28x28x256.ShapeCasts S8x28x28x256) (d : Fin 8) (p q : Fin 28) (c : Fin 256) :
    shapeCast S8x28x28x256 v h (ix4 d p q c) = v (ix5 (0 : Fin 1) d p q c) :=
  shapeCast_apply v h _ _ (by
    rw [Shape.rowMajor_val_five, Shape.rowMajor_val_four]
    show ((((0 * 8 + d.val) * 28 + p.val) * 28 + q.val) * 256 + c.val = ((d.val * 28 + p.val) * 28 + q.val) * 256 + c.val)
    omega)

/-- The sum over the 256 channels of a row. -/
theorem channelSum (v : FVec Ideal S8x28x28x256 .f32)
    (h : S8x28x28x256.Reduces [3] S8x28x28) (d : Fin 8) (p q : Fin 28) :
    multiReduction .add [3] S8x28x28 v 0x00000000#32 h (.inl rfl) rfl (ix3 d p q) = ∑ k : Fin 256, v (ix4 d p q k) :=
  (Ideal.multiReduction_add_single v 0x00000000#32 h (.inl rfl) rfl (ix3 d p q)).trans
    (Finset.sum_congr rfl fun k _ => congrArg v (funext fun a => Fin.ext (by
      match a with
      | ⟨0, _⟩ => rfl
      | ⟨1, _⟩ => rfl
      | ⟨2, _⟩ => rfl
      | ⟨3, _⟩ => rfl)))

/-- Keeping the reduced axis as a unit axis. -/
theorem keepLast (v : S8x28x28.Idx → α)
    (h : S8x28x28.ShapeCasts S8x28x28x1) (d : Fin 8) (p q : Fin 28) :
    shapeCast S8x28x28x1 v h (ix4 d p q (0 : Fin 1)) = v (ix3 d p q) :=
  shapeCast_apply v h _ _ (by
    rw [Shape.rowMajor_val_three, Shape.rowMajor_val_four]
    show (d.val * 28 + p.val) * 28 + q.val = ((d.val * 28 + p.val) * 28 + q.val) * 1 + 0
    omega)

/-- Spreading a per-row value along the channels. -/
theorem spreadLast (v : S8x28x28x1.Idx → α)
    (h : S8x28x28x1.Broadcasts S8x28x28x256) (d : Fin 8) (p q : Fin 28) (c : Fin 256) :
    broadcastTo S8x28x28x256 v h (ix4 d p q c) = v (ix4 d p q (0 : Fin 1)) :=
  broadcastTo_apply v h _ _ (fun a => by
    match a with
    | ⟨0, _⟩ => rfl
    | ⟨1, _⟩ => rfl
    | ⟨2, _⟩ => rfl
    | ⟨3, _⟩ => rfl)

/-- A 1x256 parameter row seen as 1x1x1x256. -/
theorem paramCast (v : S1x256.Idx → α) (h1 : S1x256.ShapeCasts S1x256)
    (h2 : S1x256.ShapeCasts S1x1x1x256) (c : Fin 256) :
    shapeCast S1x1x1x256 (shapeCast S1x256 v h1) h2 (ix4 (0 : Fin 1) (0 : Fin 1) (0 : Fin 1) c) = v (ix2 (0 : Fin 1) c) := by
  rw [shapeCast_self]
  exact shapeCast_apply v h2 _ _ (by
    rw [Shape.rowMajor_val_two, Shape.rowMajor_val_four]
    show 0 * 256 + c.val = ((0 * 1 + 0) * 1 + 0) * 256 + c.val
    omega)

/-- Spreading a parameter row over every row of the block. -/
theorem spreadParam (v : S1x1x1x256.Idx → α)
    (h : S1x1x1x256.Broadcasts S8x28x28x256) (d : Fin 8) (p q : Fin 28) (c : Fin 256) :
    broadcastTo S8x28x28x256 v h (ix4 d p q c) = v (ix4 (0 : Fin 1) (0 : Fin 1) (0 : Fin 1) c) :=
  broadcastTo_apply v h _ _ (fun a => by
    match a with
    | ⟨0, _⟩ => rfl
    | ⟨1, _⟩ => rfl
    | ⟨2, _⟩ => rfl
    | ⟨3, _⟩ => rfl)

/-- The channel axis moved to the front. -/
theorem channelFirst (v : S8x28x28x256.Idx → α)
    (h : S8x28x28x256.Transposes [3, 0, 1, 2] S256x8x28x28) (c : Fin 256) (d : Fin 8) (p q : Fin 28) :
    transpose S256x8x28x28 [3, 0, 1, 2] v h (ix4 c d p q) = v (ix4 d p q c) :=
  transpose_apply [3, 0, 1, 2] v h _ _ (fun b => by
    match b with
    | ⟨0, _⟩ => rfl
    | ⟨1, _⟩ => rfl
    | ⟨2, _⟩ => rfl
    | ⟨3, _⟩ => rfl)

/-- The two spatial axes merged into one of 784. -/
theorem mergeSpatial (v : S256x8x28x28.Idx → α)
    (h : S256x8x28x28.ShapeCasts S256x8x784) (c : Fin 256) (d : Fin 8) (s : Fin 784) :
    shapeCast S256x8x784 v h (ix3 c d s)
      = v (ix4 c d (⟨s.val / 28, by have := s.isLt; omega⟩ : Fin 28) (⟨s.val % 28, Nat.mod_lt _ (by decide)⟩ : Fin 28)) :=
  shapeCast_apply v h _ _ (by
    rw [Shape.rowMajor_val_four, Shape.rowMajor_val_three]
    show ((c.val * 8 + d.val) * 28 + s.val / 28) * 28 + s.val % 28 = (c.val * 8 + d.val) * 784 + s.val
    have := s.isLt
    omega)

/-- THE PAYLOAD AT AN ENTRY: LayerNorm of the row at (d, s / 28, s % 28), at channel c. -/
theorem pay_apply (x0 : Vec Ideal S1x8x28x28x256 .f32) (x1 x2 : Vec Ideal S1x256 .f32) (c : Fin 256) (d : Fin 8) (s : Fin 784) :
    Gen.k0_pay1 x0 x1 x2 (ix3 c d s)
      = lnRow (fun k => x0 (ix5 (0 : Fin 1) d (⟨s.val / 28, by have := s.isLt; omega⟩ : Fin 28) (⟨s.val % 28, Nat.mod_lt _ (by decide)⟩ : Fin 28) k))
          (fun k => x1 (ix2 (0 : Fin 1) k)) (fun k => x2 (ix2 (0 : Fin 1) k)) c := by
  unfold Gen.k0_pay1
  rw [mergeSpatial, channelFirst]
  simp only [addf_apply, mulf_apply, subf_apply, divf_apply, spreadLast, keepLast, channelSum,
    dropLead, spreadParam, paramCast, broadcast_apply, rsqrt, Ideal.rsqrt_def]
  rw [channelSum, channelSum]
  simp only [addf_apply, mulf_apply, subf_apply, divf_apply, spreadLast, keepLast,
    dropLead, broadcast_apply]
  rw [channelSum]
  simp only [dropLead]
  rfl

end Cert.KernelIdeal.ReadsNorm

end
-- ==== Proof.SpecCongr.lean ====
/-
  Each row function depends only on its arguments: congruence in every argument at once, for use where the two
  sides read the same rows through different index arithmetic.
-/
import proofs.«160886_j21612275434146_2_alg».proof.Proof.Spec

noncomputable section

namespace Cert.Spec

theorem lnRow_congr {x x' g g' b b' : Fin 256 → EReal} {c c' : Fin 256} (hx : x = x') (hg : g = g') (hb : b = b')
    (hc : c = c') : lnRow x g b c = lnRow x' g' b' c' := by subst hx hg hb hc; rfl

theorem distEntry_congr {a a' b b' : Fin 784 → EReal} (ha : a = a') (hb : b = b') : distEntry a b = distEntry a' b' := by
  subst ha hb; rfl

theorem sqDist_congr {a a' b b' : Fin 784 → EReal} (ha : a = a') (hb : b = b') : sqDist a b = sqDist a' b' := by
  subst ha hb; rfl

theorem softRow_congr {z z' : Fin 128 → EReal} {n n' : Fin 128} (hz : z = z') (hn : n = n') : softRow z n = softRow z' n' := by
  subst hz hn; rfl

end Cert.Spec

end
-- ==== Proof.LibDistanceExpansion.lean ====
/-
  The expansion of a squared Euclidean distance, over the extended reals, for vectors of real entries.

  For real vectors a and b of one length,  |a - b|^2 = |a|^2 + |b|^2 - 2 <a, b>.  A program may fold the factor -2 into
  one operand of the inner product and add the two squared norms afterwards,

      (sum_k a_k (-2 b_k) + |a|^2) + |b|^2 ,

  or subtract twice the plain inner product from the sum of the norms,

      (|a|^2 + |b|^2) - 2 sum_k a_k b_k .

  Over the reals the two are one number, because a constant factor moves out of a finite sum.  Over the extended reals
  that move is not free (a sum may meet both infinities), so the law is stated for entries that are coerced reals: then
  every sum and product below is the coercion of the real one.  The squared norms are written with the leading zero a
  running sum starts from, as an accumulating program spells them.
-/
import Idealize.ShloMosaic.PureOps.Ideal

noncomputable section

open scoped BigOperators

namespace Cert.Lib.DistanceExpansion

open Idealize.ShloMosaic

/-- The coercion of the reals into the extended reals commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of products of coerced reals is the coercion of the real sum of products. -/
theorem sum_mul_coe {n : ℕ} (a b : Fin n → ℝ) :
    ∑ k, (a k : EReal) * (b k : EReal) = ((∑ k, a k * b k : ℝ) : EReal) := by
  rw [coe_sum]
  exact Finset.sum_congr rfl fun k _ => (EReal.coe_mul _ _).symm

/-- The two arrangements of the expanded squared distance between real vectors `a` and `b` agree over the extended
    reals: the inner product taken against `-2 b` with the norms added after it, and twice the plain inner product
    subtracted from the sum of the norms. -/
theorem folded_eq_subtracted {n : ℕ} (a b : Fin n → ℝ) :
    ((∑ k, (a k : EReal) * (((-2 : ℝ) : EReal) * (b k : EReal))) + ((0 : EReal) + ∑ k, (a k : EReal) * (a k : EReal)))
        + ((0 : EReal) + ∑ k, (b k : EReal) * (b k : EReal))
      = (((0 : EReal) + ∑ k, (a k : EReal) * (a k : EReal)) + ((0 : EReal) + ∑ k, (b k : EReal) * (b k : EReal)))
        - ((2 : ℝ) : EReal) * ∑ k, (a k : EReal) * (b k : EReal) := by
  have hfold : ∑ k, (a k : EReal) * (((-2 : ℝ) : EReal) * (b k : EReal)) = ((-2 * ∑ k, a k * b k : ℝ) : EReal) := by
    rw [Finset.mul_sum, coe_sum]
    refine Finset.sum_congr rfl fun k _ => ?_
    rw [← EReal.coe_mul, ← EReal.coe_mul]
    exact congrArg _ (by ring)
  rw [hfold, sum_mul_coe a a, sum_mul_coe b b, sum_mul_coe a b, zero_add, zero_add, ← EReal.coe_mul,
    ← EReal.coe_add, ← EReal.coe_add, ← EReal.coe_add, ← EReal.coe_sub]
  exact congrArg _ (by ring)

/-- The float word `0xC0000000` read exactly is `-2`. -/
theorem word_neg_two : Ideal.ofBits .f32 0xC0000000#32 = ((-2 : ℝ) : EReal) := by
  simp [Ideal.ofBits, Ideal.ieee, -EReal.coe_mul]
  norm_num

/-- The float word `0x40000000` read exactly is `2`. -/
theorem word_two : Ideal.ofBits .f32 0x40000000#32 = ((2 : ℝ) : EReal) := by
  simp [Ideal.ofBits, Ideal.ieee, -EReal.coe_mul]
  norm_num

end Cert.Lib.DistanceExpansion

end
-- ==== Proof.SpecArrays.lean ====
/-
  The three results as whole arrays, each entry by the row mathematics of Spec.lean.

  * `normArray X G B` (256 x 128 x 784): entry (c, r, s) is LayerNorm, at channel c, of the input's channel row at
    batch r / 16, depth r % 16, height s / 28, width s % 28 — the normalised input with the channel axis first, batch
    and depth merged, the two spatial axes merged.
  * `distArray A C` (8 x 16 x 256 x 128): entry (b, d, c, n) is the distance of row 16 b + d of A's slab c from row n
    of C's slab c.
  * `softArray Z`: the softmax of -32 Z along the last axis.
  * `selfDist C` (256 x 128 x 128): the distances among the rows of one slab; `selfDistGuarded` the same with the
    squared distance of a row from itself put to zero by hand. For real entries the two agree: a real number's
    square norm taken twice less twice itself is zero.
-/
import proofs.«160886_j21612275434146_2_alg».proof.Proof.Spec
import proofs.«160886_j21612275434146_2_alg».proof.Proof.SpecCongr
import proofs.«160886_j21612275434146_2_alg».proof.Proof.LibDistanceExpansion
import Idealize.ShloMosaic.Lib.ValueIdx

noncomputable section

namespace Cert.Spec

open Idealize.ShloMosaic Idealize.ShloMosaic.ValueIdx

/-- The normalised input, channel axis first, (batch, depth) merged and (height, width) merged. -/
def normArray (X : (⟨5, ![8, 16, 28, 28, 256]⟩ : Shape).Idx → EReal) (g b : Fin 256 → EReal) :
    (⟨3, ![256, 128, 784]⟩ : Shape).Idx → EReal := fun i =>
  lnRow (fun k => X (ix5 (⟨(i 1).val / 16, by have : (i 1).val < 128 := (i 1).isLt; omega⟩ : Fin 8)
        (⟨(i 1).val % 16, Nat.mod_lt _ (by decide)⟩ : Fin 16)
        (⟨(i 2).val / 28, by have : (i 2).val < 784 := (i 2).isLt; omega⟩ : Fin 28)
        (⟨(i 2).val % 28, Nat.mod_lt _ (by decide)⟩ : Fin 28) k))
    g b ⟨(i 0).val, by exact (i 0).isLt⟩

/-- Row `r` of slab `c` of a 256 x 128 x 784 array. -/
def slabRow (A : (⟨3, ![256, 128, 784]⟩ : Shape).Idx → EReal) (c : Fin 256) (r : Fin 128) : Fin 784 → EReal :=
  fun k => A (ix3 c r k)

/-- The distances of A's rows from C's rows, slab by slab, laid out (batch, depth, slab, row of C). -/
def distArray (A C : (⟨3, ![256, 128, 784]⟩ : Shape).Idx → EReal) : (⟨4, ![8, 16, 256, 128]⟩ : Shape).Idx → EReal := fun i =>
  distEntry (slabRow A ⟨(i 2).val, by exact (i 2).isLt⟩
      ⟨(i 0).val * 16 + (i 1).val, by have : (i 0).val < 8 := (i 0).isLt; have : (i 1).val < 16 := (i 1).isLt; omega⟩)
    (slabRow C ⟨(i 2).val, by exact (i 2).isLt⟩ ⟨(i 3).val, by exact (i 3).isLt⟩)

/-- The softmax of -32 Z along the last axis. -/
def softArray (Z : (⟨4, ![8, 16, 256, 128]⟩ : Shape).Idx → EReal) : (⟨4, ![8, 16, 256, 128]⟩ : Shape).Idx → EReal := fun i =>
  softRow (fun n => Z (ix4 (⟨(i 0).val, by exact (i 0).isLt⟩ : Fin 8) (⟨(i 1).val, by exact (i 1).isLt⟩ : Fin 16) (⟨(i 2).val, by exact (i 2).isLt⟩ : Fin 256) n))
    ⟨(i 3).val, by exact (i 3).isLt⟩

/-- The distances among the rows of each slab. -/
def selfDist (C : (⟨3, ![256, 128, 784]⟩ : Shape).Idx → EReal) : (⟨3, ![256, 128, 128]⟩ : Shape).Idx → EReal := fun i =>
  distEntry (slabRow C ⟨(i 0).val, by exact (i 0).isLt⟩ ⟨(i 1).val, by exact (i 1).isLt⟩) (slabRow C ⟨(i 0).val, by exact (i 0).isLt⟩ ⟨(i 2).val, by exact (i 2).isLt⟩)

/-- The same with the squared distance of a row from itself set to zero before the floor and the root. -/
def selfDistGuarded (C : (⟨3, ![256, 128, 784]⟩ : Shape).Idx → EReal) : (⟨3, ![256, 128, 128]⟩ : Shape).Idx → EReal := fun i =>
  rootFloor (if (i 1).val = (i 2).val then Ideal.ofBits .f32 0x00000000#32
    else sqDist (slabRow C ⟨(i 0).val, by exact (i 0).isLt⟩ ⟨(i 1).val, by exact (i 1).isLt⟩) (slabRow C ⟨(i 0).val, by exact (i 0).isLt⟩ ⟨(i 2).val, by exact (i 2).isLt⟩))

/-- For a vector of real entries the expanded squared distance from itself is zero. -/
theorem sqDist_self (a : Fin 784 → EReal) (ha : ∀ k, ∃ r : ℝ, a k = (r : EReal)) : sqDist a a = 0 := by
  choose f hf using ha
  obtain rfl : a = fun k => (f k : EReal) := funext hf
  unfold sqDist
  rw [Cert.Lib.DistanceExpansion.sum_mul_coe f f, Cert.Lib.DistanceExpansion.word_two, ← EReal.coe_mul, ← EReal.coe_add,
    ← EReal.coe_sub]
  rw [show (∑ k, f k * f k) + (∑ k, f k * f k) - 2 * (∑ k, f k * f k) = (0 : ℝ) by ring]
  rfl

/-- With real entries, forcing a row's distance from itself changes nothing. -/
theorem selfDistGuarded_eq (C : (⟨3, ![256, 128, 784]⟩ : Shape).Idx → EReal) (hC : ∀ i, ∃ r : ℝ, C i = (r : EReal)) :
    selfDistGuarded C = selfDist C := by
  funext i
  unfold selfDistGuarded selfDist distEntry
  by_cases h : (i 1).val = (i 2).val
  · rw [if_pos h]
    have e : (⟨(i 2).val, by exact (i 2).isLt⟩ : Fin 128) = ⟨(i 1).val, by exact (i 1).isLt⟩ := Fin.ext h.symm
    have hz := sqDist_self (slabRow C ⟨(i 0).val, by exact (i 0).isLt⟩ ⟨(i 1).val, by exact (i 1).isLt⟩) (fun k => hC _)
    refine congrArg rootFloor ?_
    rw [Ideal.ofBits_zero_f32]
    exact ((sqDist_congr rfl (congrArg (slabRow C _) e)).trans hz).symm
  · rw [if_neg h]

end Cert.Spec

end
-- ==== Proof.ArrayNorm.lean ====
/-
  The first call's result array. The grid is 8 batches by 2 halves of the depth axis; point (b, e) reads the input's
  slices (b, 8 e .. 8 e + 7) whole and writes rows 16 b + 8 e .. + 7 of every channel's slab. What a point writes
  back is its block of ONE whole-array function, the normalised input re-laid (`normArray`), and the sixteen blocks
  tile the 128 rows: the array ends holding that function.
-/
import proofs.«160886_j21612275434146_2_alg».proof.Proof.Gen.KernelIdeal.Frame
import proofs.«160886_j21612275434146_2_alg».proof.Proof.ReadsNorm
import proofs.«160886_j21612275434146_2_alg».proof.Proof.SpecArrays
import proofs.«160886_j21612275434146_2_alg».proof.Proof.SpecCongr

set_option maxRecDepth 16384

noncomputable section

namespace Cert.KernelIdeal.ArrayNorm

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem hz5 : (![0, 0, 0, 0, 0] : Fin 5 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the input's block is (batch, half, 0, 0, 0), the parameters' (0, 0), the
    output's (0, 2 batch + half, 0). -/
theorem idx_facts : ∀ t : Fin cfg0.N,
    win0_3.index t (0 : Fin 3) = 0 ∧ win0_3.index t (2 : Fin 3) = 0
    ∧ win0_3.index t (1 : Fin 3) = win0_0.index t (0 : Fin 5) * 2 + win0_0.index t (1 : Fin 5)
    ∧ win0_0.index t (0 : Fin 5) ≤ 7 ∧ win0_0.index t (1 : Fin 5) ≤ 1
    ∧ win0_0.index t (2 : Fin 5) = 0 ∧ win0_0.index t (3 : Fin 5) = 0 ∧ win0_0.index t (4 : Fin 5) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every block row of the output is some point's. -/
theorem idx_onto : ∀ q : Fin 16, ∃ t : Fin cfg0.N, win0_3.index t = ![0, q.val, 0] :=
  (by decide +kernel : ∀ q : Fin 16, ∃ t : Fin grid0.N, win0_3.index t = ![0, q.val, 0])

/-- An entry of the input's block at a point is the input at the block's offset plus the entry's coordinates. -/
theorem blkX_apply (c : Dev nD) (t : Fin cfg0.N) (x : S1x8x28x28x256.Idx) (k : S8x16x28x28x256.Idx)
    (h0 : (k 0).val = win0_0.index t (0 : Fin 5) * 1 + (x 0).val) (h1 : (k 1).val = win0_0.index t (1 : Fin 5) * 8 + (x 1).val)
    (h2 : (k 2).val = win0_0.index t (2 : Fin 5) * 28 + (x 2).val) (h3 : (k 3).val = win0_0.index t (3 : Fin 5) * 28 + (x 3).val)
    (h4 : (k 4).val = win0_0.index t (4 : Fin 5) * 256 + (x 4).val) :
    (iblk0 V c 0 t : Vec Ideal S1x8x28x28x256 .f32) x = (V c main_arg0 : S8x16x28x28x256.Idx → Elt Ideal .f32) k := by
  unfold iblk0
  rw [View.read_apply]
  show V c main_arg0 _ = V c main_arg0 _
  congr 1
  funext a
  apply Fin.ext
  match a with
  | ⟨0, _⟩ => show win0_0.index t (0 : Fin 5) * 1 + 1 * (x 0).val = (k 0).val; omega
  | ⟨1, _⟩ => show win0_0.index t (1 : Fin 5) * 8 + 1 * (x 1).val = (k 1).val; omega
  | ⟨2, _⟩ => show win0_0.index t (2 : Fin 5) * 28 + 1 * (x 2).val = (k 2).val; omega
  | ⟨3, _⟩ => show win0_0.index t (3 : Fin 5) * 28 + 1 * (x 3).val = (k 3).val; omega
  | ⟨4, _⟩ => show win0_0.index t (4 : Fin 5) * 256 + 1 * (x 4).val = (k 4).val; omega

/-- The scale's block at any point is the whole 1 x 256 row. -/
theorem blkG_apply (c : Dev nD) (t : Fin cfg0.N) (x : S1x256.Idx) :
    (iblk0 V c 1 t : Vec Ideal S1x256 .f32) x = (V c main_v0 : S1x256.Idx → Elt Ideal .f32) x := by
  obtain ⟨-, -, -, -, -, -, -, -, e0, e1, -, -⟩ := idx_facts t
  unfold iblk0
  rw [View.read_apply]
  show V c main_v0 _ = V c main_v0 _
  congr 1
  funext a
  apply Fin.ext
  match a with
  | ⟨0, _⟩ => show win0_1.index t (0 : Fin 2) * 1 + 1 * (x 0).val = (x 0).val; omega
  | ⟨1, _⟩ => show win0_1.index t (1 : Fin 2) * 256 + 1 * (x 1).val = (x 1).val; omega

/-- The shift's block likewise. -/
theorem blkB_apply (c : Dev nD) (t : Fin cfg0.N) (x : S1x256.Idx) :
    (iblk0 V c 2 t : Vec Ideal S1x256 .f32) x = (V c main_v1 : S1x256.Idx → Elt Ideal .f32) x := by
  obtain ⟨-, -, -, -, -, -, -, -, -, -, e0, e1⟩ := idx_facts t
  unfold iblk0
  rw [View.read_apply]
  show V c main_v1 _ = V c main_v1 _
  congr 1
  funext a
  apply Fin.ext
  match a with
  | ⟨0, _⟩ => show win0_2.index t (0 : Fin 2) * 1 + 1 * (x 0).val = (x 0).val; omega
  | ⟨1, _⟩ => show win0_2.index t (1 : Fin 2) * 256 + 1 * (x 1).val = (x 1).val; omega

/-- WHAT POINT `t` WRITES BACK is block `t` of the normalised, re-laid input. -/
theorem flushed_eq (c : Dev nD) (t : Fin cfg0.N) :
    (dat0 V c).flushed 3 t
      = ((cfg0.win 3).blk t).view.read (Elt Ideal) (normArray (V c main_arg0) (fun k => (V c main_v0 : S1x256.Idx → Elt Ideal .f32) (ix2 (0 : Fin 1) k))
        (fun k => (V c main_v1 : S1x256.Idx → Elt Ideal .f32) (ix2 (0 : Fin 1) k))) := by
  show (cfg0.win 3).cut (grid0.coords t) ((dat0 V c).after 3 t) = _
  rw [after0_3]
  unfold out0_3
  rw [View.canon_unit_zero hz3]
  simp only [View.ld_unit_zero (S := S1x8x28x28x256) hz5, View.ld_unit_zero (S := S1x256) hz2]
  obtain ⟨o0, o2, o1, b0, b1, i2, i3, i4, -, -, -, -⟩ := idx_facts t
  funext j
  obtain ⟨cc, d, s, rfl⟩ : ∃ (cc : Fin 256) (d : Fin 8) (s : Fin 784), j = ix3 cc d s := ⟨j 0, j 1, j 2, eq_ix3 j⟩
  show Gen.k0_pay1 (iblk0 V c 0 t) (iblk0 V c 1 t) (iblk0 V c 2 t) (ix3 cc d s)
    = normArray (V c main_arg0) (fun k => (V c main_v0 : S1x256.Idx → Elt Ideal .f32) (ix2 (0 : Fin 1) k))
        (fun k => (V c main_v1 : S1x256.Idx → Elt Ideal .f32) (ix2 (0 : Fin 1) k)) (((cfg0.win 3).blk t).view.emb (ix3 cc d s))
  refine (ReadsNorm.pay_apply (iblk0 V c 0 t) (iblk0 V c 1 t) (iblk0 V c 2 t) cc d s).trans ?_
  unfold normArray
  have hs : s.val < 784 := s.isLt
  have hd : d.val < 8 := d.isLt
  refine lnRow_congr (funext fun k => blkX_apply V c t _ _ ?_ ?_ ?_ ?_ ?_) (funext fun k => blkG_apply V c t _)
    (funext fun k => blkB_apply V c t _) (Fin.ext ?_)
  · show (win0_3.index t (1 : Fin 3) * 8 + 1 * d.val) / 16 = win0_0.index t (0 : Fin 5) * 1 + 0
    omega
  · show (win0_3.index t (1 : Fin 3) * 8 + 1 * d.val) % 16 = win0_0.index t (1 : Fin 5) * 8 + d.val
    omega
  · show (win0_3.index t (2 : Fin 3) * 784 + 1 * s.val) / 28 = win0_0.index t (2 : Fin 5) * 28 + s.val / 28
    omega
  · show (win0_3.index t (2 : Fin 3) * 784 + 1 * s.val) % 28 = win0_0.index t (3 : Fin 5) * 28 + s.val % 28
    omega
  · show k.val = win0_0.index t (4 : Fin 5) * 256 + k.val
    omega
  · show cc.val = win0_3.index t (0 : Fin 3) * 256 + 1 * cc.val
    omega

/-- An index of the array is in point `t`'s block iff each coordinate is in the block's range on its axis. -/
theorem mem_blk (t : Fin cfg0.N) (i : S256x128x784.Idx) :
    i ∈ ((cfg0.win 3).blk t).view.set ↔ ∀ a : Fin 3, win0_3.index t a * S256x8x784.size a ≤ (i a).val
      ∧ (i a).val < win0_3.index t a * S256x8x784.size a + S256x8x784.size a := by
  show i ∈ ((View.whole main_v2).slice (win0_3.rect t)).set ↔ _
  rw [View.set_slice_whole, Rect.mem_set_unit]
  exact Iff.rfl

/-- The sixteen blocks tile the array: row r lies in the block of row index r / 8. -/
theorem cover (i : S256x128x784.Idx) :
    ∃ t : Fin cfg0.N, (cfg0.win 3).flush t = true ∧ i ∈ ((cfg0.win 3).blk t).view.set := by
  have h0 : (i 0).val < 256 := (i 0).isLt
  have h1 : (i 1).val < 128 := (i 1).isLt
  have h2 : (i 2).val < 784 := (i 2).isLt
  obtain ⟨t, ht⟩ := idx_onto ⟨(i 1).val / 8, by omega⟩
  have q0 : win0_3.index t (0 : Fin 3) = 0 := congrFun ht 0
  have q1 : win0_3.index t (1 : Fin 3) = (i 1).val / 8 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 256 ≤ (i 0).val ∧ (i 0).val < win0_3.index t (0 : Fin 3) * 256 + 256; omega
  | ⟨1, _⟩ => show win0_3.index t (1 : Fin 3) * 8 ≤ (i 1).val ∧ (i 1).val < win0_3.index t (1 : Fin 3) * 8 + 8; omega
  | ⟨2, _⟩ => show win0_3.index t (2 : Fin 3) * 784 ≤ (i 2).val ∧ (i 2).val < win0_3.index t (2 : Fin 3) * 784 + 784; omega

/-- THE ARRAY after the first call: the normalised input, channel axis first, rows and positions merged. -/
theorem final (c : Dev nD) :
    (dat0 V c).arrAt 3 cfg0.N = normArray (V c main_arg0) (fun k => (V c main_v0 : S1x256.Idx → Elt Ideal .f32) (ix2 (0 : Fin 1) k))
        (fun k => (V c main_v1 : S1x256.Idx → Elt Ideal .f32) (ix2 (0 : Fin 1) k)) :=
  (dat0 V c).arrAt_eq_of_cover 3 _ (fun t _ => flushed_eq V c t) cover

end Cert.KernelIdeal.ArrayNorm

end
-- ==== Proof.ReadsDist.lean ====
/-
  The second call's two blocks, one entry at a time. The body loads a slab block of the normalised input (8 channel
  slabs x 128 rows x 784) and the matching block of the cluster centres, forms for every slab the 128 x 128 table of
  expanded squared distances |a|^2 + |b|^2 - 2 <a, b> (the inner products by one batched matrix product into zero),
  floors, takes the root, and stores the table with the 128 rows split into (8, 16) and moved to the front: entry
  (b, d, c, n) of the first output block is the distance of row 16 b + d of slab c from centre n of slab c. The second
  output is the softmax of -32 times the first along n.
-/
import proofs.«160886_j21612275434146_2_alg».proof.Proof.Gen.KernelIdeal.Skeleton
import proofs.«160886_j21612275434146_2_alg».proof.Proof.Spec
import Idealize.ShloMosaic.Lib.Pipeline.Value
import Idealize.ShloMosaic.Lib.ValueIdx
import Idealize.ShloMosaic.PureOps.Ideal.Laws

noncomputable section

namespace Cert.KernelIdeal.ReadsDist

open Idealize.ShloMosaic Idealize.ShloMosaic.TcCoe Idealize.ShloMosaic.ValueIdx
open Cert.KernelIdeal Cert.Spec

variable {α : Type}

/-! ## The batched product of rows with rows -/

theorem lhs0 (i : S8x128x128.Idx) (q : dot_S8x128x784_S8x128x784_S8x128x128_2_2_1_1_0_0.contr.Idx) : (dot_S8x128x784_S8x128x784_S8x128x128_2_2_1_1_0_0.lhsIdx i q 0).val = (i 0).val := by
  unfold DotDims.lhsIdx
  rw [dif_pos (show (0 : Fin S8x128x784.rank) ∈ dot_S8x128x784_S8x128x784_S8x128x128_2_2_1_1_0_0.lhsBatch by decide)]
  rfl
theorem lhs1 (i : S8x128x128.Idx) (q : dot_S8x128x784_S8x128x784_S8x128x128_2_2_1_1_0_0.contr.Idx) : (dot_S8x128x784_S8x128x784_S8x128x128_2_2_1_1_0_0.lhsIdx i q 1).val = (i 1).val := by
  unfold DotDims.lhsIdx
  rw [dif_neg (show ¬(1 : Fin S8x128x784.rank) ∈ dot_S8x128x784_S8x128x784_S8x128x128_2_2_1_1_0_0.lhsBatch by decide),
    dif_pos (show (1 : Fin S8x128x784.rank) ∈ dot_S8x128x784_S8x128x784_S8x128x128_2_2_1_1_0_0.lhsNonContracting by decide)]
  rfl
theorem lhs2 (i : S8x128x128.Idx) (q : dot_S8x128x784_S8x128x784_S8x128x128_2_2_1_1_0_0.contr.Idx) : (dot_S8x128x784_S8x128x784_S8x128x128_2_2_1_1_0_0.lhsIdx i q 2).val = (q ⟨0, by decide⟩).val :=
  dot_S8x128x784_S8x128x784_S8x128x128_2_2_1_1_0_0.lhsIdx_val_of_single rfl i q
theorem rhs0 (i : S8x128x128.Idx) (q : dot_S8x128x784_S8x128x784_S8x128x128_2_2_1_1_0_0.contr.Idx) : (dot_S8x128x784_S8x128x784_S8x128x128_2_2_1_1_0_0.rhsIdx i q 0).val = (i 0).val := by
  unfold DotDims.rhsIdx
  rw [dif_pos (show (0 : Fin S8x128x784.rank) ∈ dot_S8x128x784_S8x128x784_S8x128x128_2_2_1_1_0_0.rhsBatch by decide)]
  rfl
theorem rhs1 (i : S8x128x128.Idx) (q : dot_S8x128x784_S8x128x784_S8x128x128_2_2_1_1_0_0.contr.Idx) : (dot_S8x128x784_S8x128x784_S8x128x128_2_2_1_1_0_0.rhsIdx i q 1).val = (i 2).val := by
  unfold DotDims.rhsIdx
  rw [dif_neg (show ¬(1 : Fin S8x128x784.rank) ∈ dot_S8x128x784_S8x128x784_S8x128x128_2_2_1_1_0_0.rhsBatch by decide),
    dif_pos (show (1 : Fin S8x128x784.rank) ∈ dot_S8x128x784_S8x128x784_S8x128x128_2_2_1_1_0_0.rhsNonContracting by decide)]
  rfl
theorem rhs2 (i : S8x128x128.Idx) (q : dot_S8x128x784_S8x128x784_S8x128x128_2_2_1_1_0_0.contr.Idx) : (dot_S8x128x784_S8x128x784_S8x128x128_2_2_1_1_0_0.rhsIdx i q 2).val = (q ⟨0, by decide⟩).val :=
  dot_S8x128x784_S8x128x784_S8x128x128_2_2_1_1_0_0.rhsIdx_val_of_single rfl i q

/-- Slab by slab, the product into zero of the rows of `a` with the rows of `b`: entry (c, r, n) is the inner product
    of row r of a's slab c with row n of b's slab c. -/
theorem gram {φ₁ φ₂ : FTy} (a : FVec Ideal S8x128x784 φ₁) (b : FVec Ideal S8x128x784 φ₂) (c : Fin 8) (r n : Fin 128) :
    matmul dot_S8x128x784_S8x128x784_S8x128x128_2_2_1_1_0_0 none a b (constant S8x128x128 .f32 0x00000000#32) (ix3 c r n)
      = ∑ k : Fin 784, a (ix3 c r k) * b (ix3 c n k) := by
  simp only [matmul]
  rw [Ideal.matmul_constant_zero_apply, ← Equiv.sum_comp (ValueIdx.contrEquiv1 dot_S8x128x784_S8x128x784_S8x128x128_2_2_1_1_0_0 784 rfl rfl).symm]
  refine Finset.sum_congr rfl fun k _ => ?_
  have hk := ValueIdx.contrEquiv1_symm_val dot_S8x128x784_S8x128x784_S8x128x128_2_2_1_1_0_0 784 rfl rfl k
  have el : dot_S8x128x784_S8x128x784_S8x128x128_2_2_1_1_0_0.lhsIdx (ix3 c r n) ((ValueIdx.contrEquiv1 dot_S8x128x784_S8x128x784_S8x128x128_2_2_1_1_0_0 784 rfl rfl).symm k) = ix3 c r k := funext fun a => Fin.ext (by
    match a with
    | ⟨0, _⟩ => exact lhs0 _ _
    | ⟨1, _⟩ => exact lhs1 _ _
    | ⟨2, _⟩ => exact (lhs2 _ _).trans hk)
  have er : dot_S8x128x784_S8x128x784_S8x128x128_2_2_1_1_0_0.rhsIdx (ix3 c r n) ((ValueIdx.contrEquiv1 dot_S8x128x784_S8x128x784_S8x128x128_2_2_1_1_0_0 784 rfl rfl).symm k) = ix3 c n k := funext fun a => Fin.ext (by
    match a with
    | ⟨0, _⟩ => exact rhs0 _ _
    | ⟨1, _⟩ => exact rhs1 _ _
    | ⟨2, _⟩ => exact (rhs2 _ _).trans hk)
  rw [el, er]

/-! ## The layout steps of the distance table -/

/-- The sum along the 784 coordinates of a row. -/
theorem rowSum (v : FVec Ideal S8x128x784 .f32) (h : S8x128x784.Reduces [2] S8x128) (c : Fin 8) (r : Fin 128) :
    multiReduction .add [2] S8x128 v 0x00000000#32 h (.inl rfl) rfl (ix2 c r) = ∑ k : Fin 784, v (ix3 c r k) :=
  (Ideal.multiReduction_add_single v 0x00000000#32 h (.inl rfl) rfl (ix2 c r)).trans
    (Finset.sum_congr rfl fun k _ => congrArg v (funext fun a => Fin.ext (by
      match a with
      | ⟨0, _⟩ => rfl
      | ⟨1, _⟩ => rfl
      | ⟨2, _⟩ => rfl)))

/-- A per-row value kept as a column. -/
theorem asColumn (v : S8x128.Idx → α) (h : S8x128.ShapeCasts S8x128x1) (c : Fin 8) (r : Fin 128) :
    shapeCast S8x128x1 v h (ix3 c r (0 : Fin 1)) = v (ix2 c r) :=
  shapeCast_apply v h _ _ (by
    rw [Shape.rowMajor_val_two, Shape.rowMajor_val_three]
    show c.val * 128 + r.val = (c.val * 128 + r.val) * 1 + 0
    omega)

/-- A per-row value kept as a row. -/
theorem asRow (v : S8x128.Idx → α) (h : S8x128.ShapeCasts S8x1x128) (c : Fin 8) (n : Fin 128) :
    shapeCast S8x1x128 v h (ix3 c (0 : Fin 1) n) = v (ix2 c n) :=
  shapeCast_apply v h _ _ (by
    rw [Shape.rowMajor_val_two, Shape.rowMajor_val_three]
    show c.val * 128 + n.val = (c.val * 1 + 0) * 128 + n.val
    omega)

/-- A column spread along the rows' entries. -/
theorem spreadColumn (v : S8x128x1.Idx → α) (h : S8x128x1.Broadcasts S8x128x128) (c : Fin 8) (r n : Fin 128) :
    broadcastTo S8x128x128 v h (ix3 c r n) = v (ix3 c r (0 : Fin 1)) :=
  broadcastTo_apply v h _ _ (fun a => by
    match a with
    | ⟨0, _⟩ => rfl
    | ⟨1, _⟩ => rfl
    | ⟨2, _⟩ => rfl)

/-- A row spread down the rows. -/
theorem spreadRow (v : S8x1x128.Idx → α) (h : S8x1x128.Broadcasts S8x128x128) (c : Fin 8) (r n : Fin 128) :
    broadcastTo S8x128x128 v h (ix3 c r n) = v (ix3 c (0 : Fin 1) n) :=
  broadcastTo_apply v h _ _ (fun a => by
    match a with
    | ⟨0, _⟩ => rfl
    | ⟨1, _⟩ => rfl
    | ⟨2, _⟩ => rfl)

/-- The 128 rows split into 8 groups of 16. -/
theorem splitRows (v : S8x128x128.Idx → α) (h : S8x128x128.ShapeCasts S8x8x16x128) (c b : Fin 8) (d : Fin 16) (n : Fin 128) :
    shapeCast S8x8x16x128 v h (ix4 c b d n)
      = v (ix3 c (⟨b.val * 16 + d.val, by have := b.isLt; have := d.isLt; omega⟩ : Fin 128) n) :=
  shapeCast_apply v h _ _ (by
    rw [Shape.rowMajor_val_three, Shape.rowMajor_val_four]
    show (c.val * 128 + (b.val * 16 + d.val)) * 128 + n.val = ((c.val * 8 + b.val) * 16 + d.val) * 128 + n.val
    omega)

/-- The slab axis moved behind the two row axes. -/
theorem rowsFirst (v : S8x8x16x128.Idx → α) (h : S8x8x16x128.Transposes [1, 2, 0, 3] S8x16x8x128) (b : Fin 8) (d : Fin 16)
    (c : Fin 8) (n : Fin 128) :
    transpose S8x16x8x128 [1, 2, 0, 3] v h (ix4 b d c n) = v (ix4 c b d n) :=
  transpose_apply [1, 2, 0, 3] v h _ _ (fun a => by
    match a with
    | ⟨0, _⟩ => rfl
    | ⟨1, _⟩ => rfl
    | ⟨2, _⟩ => rfl
    | ⟨3, _⟩ => rfl)

/-- THE FIRST OUTPUT'S PAYLOAD AT AN ENTRY: the distance of row 16 b + d of slab c from centre n of slab c. -/
theorem dist_apply (x0 x1 : Vec Ideal S8x128x784 .f32) (b : Fin 8) (d : Fin 16) (c : Fin 8) (n : Fin 128) :
    Gen.k1_pay1 x0 x1 (ix4 b d c n)
      = distEntry (fun k => x0 (ix3 c (⟨b.val * 16 + d.val, by have := b.isLt; have := d.isLt; omega⟩ : Fin 128) k))
          (fun k => x1 (ix3 c n k)) := by
  unfold Gen.k1_pay1
  rw [rowsFirst, splitRows]
  simp only [shapeCast_self, maximumf_apply, subf_apply, addf_apply, mulf_apply, spreadColumn, spreadRow, asColumn, asRow,
    broadcast_apply, truncf_apply, sqrt, Ideal.sqrt_def]
  rw [gram, rowSum, rowSum]
  simp only [mulf_apply, truncf_apply]
  rfl

/-! ## The softmax over the 128 centres -/

/-- The sum over the 128 centres. -/
theorem centreSum (v : FVec Ideal S8x16x8x128 .f32) (h : S8x16x8x128.Reduces [3] S8x16x8) (b : Fin 8) (d : Fin 16) (c : Fin 8) :
    multiReduction .add [3] S8x16x8 v 0x00000000#32 h (.inl rfl) rfl (ix3 b d c) = ∑ l : Fin 128, v (ix4 b d c l) :=
  (Ideal.multiReduction_add_single v 0x00000000#32 h (.inl rfl) rfl (ix3 b d c)).trans
    (Finset.sum_congr rfl fun k _ => congrArg v (funext fun a => Fin.ext (by
      match a with
      | ⟨0, _⟩ => rfl
      | ⟨1, _⟩ => rfl
      | ⟨2, _⟩ => rfl
      | ⟨3, _⟩ => rfl)))

/-- The maximum over the 128 centres, as the fold of max from -inf. -/
theorem centreMax (v : FVec Ideal S8x16x8x128 .f32) (h : S8x16x8x128.Reduces [3] S8x16x8) (b : Fin 8) (d : Fin 16) (c : Fin 8) :
    multiReduction .maximumf [3] S8x16x8 v 0xFF800000#32 h (.inl rfl) rfl (ix3 b d c)
      = (Finset.univ : Finset (Fin 128)).fold max (Ideal.ofBits .f32 0xFF800000#32) (fun l => v (ix4 b d c l)) :=
  (Ideal.multiReduction_maximumf_single v 0xFF800000#32 h (.inl rfl) rfl (ix3 b d c)).trans
    (congrArg (fun f => (Finset.univ : Finset (Fin 128)).fold max (Ideal.ofBits .f32 0xFF800000#32) f)
      (funext fun k => congrArg v (funext fun a => Fin.ext (by
        match a with
        | ⟨0, _⟩ => rfl
        | ⟨1, _⟩ => rfl
        | ⟨2, _⟩ => rfl
        | ⟨3, _⟩ => rfl))))

/-- A per-row value kept with a unit last axis. -/
theorem keepCentre (v : S8x16x8.Idx → α) (h : S8x16x8.ShapeCasts S8x16x8x1) (b : Fin 8) (d : Fin 16) (c : Fin 8) :
    shapeCast S8x16x8x1 v h (ix4 b d c (0 : Fin 1)) = v (ix3 b d c) :=
  shapeCast_apply v h _ _ (by
    rw [Shape.rowMajor_val_three, Shape.rowMajor_val_four]
    show (b.val * 16 + d.val) * 8 + c.val = ((b.val * 16 + d.val) * 8 + c.val) * 1 + 0
    omega)

/-- That value spread along the centres. -/
theorem spreadCentre (v : S8x16x8x1.Idx → α) (h : S8x16x8x1.Broadcasts S8x16x8x128) (b : Fin 8) (d : Fin 16) (c : Fin 8)
    (n : Fin 128) : broadcastTo S8x16x8x128 v h (ix4 b d c n) = v (ix4 b d c (0 : Fin 1)) :=
  broadcastTo_apply v h _ _ (fun a => by
    match a with
    | ⟨0, _⟩ => rfl
    | ⟨1, _⟩ => rfl
    | ⟨2, _⟩ => rfl
    | ⟨3, _⟩ => rfl)

/-- THE SECOND OUTPUT'S PAYLOAD AT AN ENTRY: the softmax of -32 times the first output's row, at centre n. -/
theorem soft_apply (x0 x1 : Vec Ideal S8x128x784 .f32) (b : Fin 8) (d : Fin 16) (c : Fin 8) (n : Fin 128) :
    Gen.k1_pay2 x0 x1 (ix4 b d c n) = softRow (fun l => Gen.k1_pay1 x0 x1 (ix4 b d c l)) n := by
  unfold Gen.k1_pay2
  simp only [divf_apply, subf_apply, mulf_apply, maximumf_apply, spreadCentre, keepCentre, broadcast_apply, exp, Ideal.exp_def]
  rw [centreSum, centreMax]
  simp only [subf_apply, mulf_apply, maximumf_apply, spreadCentre, keepCentre, broadcast_apply, exp, Ideal.exp_def]
  rw [centreMax]
  simp only [mulf_apply, broadcast_apply]
  rfl

end Cert.KernelIdeal.ReadsDist

end
-- ==== Proof.ArrayDist.lean ====
/-
  The second call's two result arrays. The grid is the 32 blocks of 8 channel slabs; point t reads slabs 8 t .. 8 t + 7
  of the normalised input and of the cluster centres whole, and writes, in both outputs, the entries whose slab
  coordinate lies in that block (all batches, depths and centres). What a point writes back is its block of ONE
  whole-array function — the distances (`distArray`), and their softmax along the centres (`softArray`) — and the
  32 blocks tile the slab axis: each array ends holding its function.
-/
import proofs.«160886_j21612275434146_2_alg».proof.Proof.Gen.KernelIdeal.Frame
import proofs.«160886_j21612275434146_2_alg».proof.Proof.ReadsDist
import proofs.«160886_j21612275434146_2_alg».proof.Proof.SpecArrays
import proofs.«160886_j21612275434146_2_alg».proof.Proof.SpecCongr

set_option maxRecDepth 16384

noncomputable section

namespace Cert.KernelIdeal.ArrayDist

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps over the grid: both inputs' block is (t, 0, 0), both outputs' (0, 0, t, 0). -/
theorem idx_facts : ∀ t : Fin cfg1.N,
    win1_0.index t (0 : Fin 3) = win1_2.index t (2 : Fin 4) ∧ win1_0.index t (1 : Fin 3) = 0 ∧ win1_0.index t (2 : Fin 3) = 0
    ∧ win1_1.index t (0 : Fin 3) = win1_2.index t (2 : Fin 4) ∧ win1_1.index t (1 : Fin 3) = 0 ∧ win1_1.index t (2 : Fin 3) = 0
    ∧ win1_2.index t (0 : Fin 4) = 0 ∧ win1_2.index t (1 : Fin 4) = 0 ∧ win1_2.index t (3 : Fin 4) = 0
    ∧ win1_2.index t (2 : Fin 4) ≤ 31
    ∧ win1_3.index t (0 : Fin 4) = 0 ∧ win1_3.index t (1 : Fin 4) = 0 ∧ win1_3.index t (3 : Fin 4) = 0
    ∧ win1_3.index t (2 : Fin 4) = win1_2.index t (2 : Fin 4) :=
  (by decide +kernel : ∀ t : Fin grid1.N, _)

/-- Every slab block of the outputs is some point's. -/
theorem idx_onto : ∀ q : Fin 32, ∃ t : Fin cfg1.N, win1_2.index t = ![0, 0, q.val, 0] ∧ win1_3.index t = ![0, 0, q.val, 0] :=
  (by decide +kernel : ∀ q : Fin 32, ∃ t : Fin grid1.N, win1_2.index t = ![0, 0, q.val, 0] ∧ win1_3.index t = ![0, 0, q.val, 0])

/-- An entry of the first input's block at a point is the array at the block's offset plus the entry's coordinates. -/
theorem blkA_apply (c : Dev nD) (t : Fin cfg1.N) (x : S8x128x784.Idx) (k : S256x128x784.Idx)
    (h0 : (k 0).val = win1_0.index t (0 : Fin 3) * 8 + (x 0).val) (h1 : (k 1).val = win1_0.index t (1 : Fin 3) * 128 + (x 1).val)
    (h2 : (k 2).val = win1_0.index t (2 : Fin 3) * 784 + (x 2).val) :
    (iblk1 V c 0 t : Vec Ideal S8x128x784 .f32) x = (V c main_v2 : S256x128x784.Idx → Elt Ideal .f32) k := by
  unfold iblk1
  rw [View.read_apply]
  show V c main_v2 _ = V c main_v2 _
  congr 1
  funext a
  apply Fin.ext
  match a with
  | ⟨0, _⟩ => show win1_0.index t (0 : Fin 3) * 8 + 1 * (x 0).val = (k 0).val; omega
  | ⟨1, _⟩ => show win1_0.index t (1 : Fin 3) * 128 + 1 * (x 1).val = (k 1).val; omega
  | ⟨2, _⟩ => show win1_0.index t (2 : Fin 3) * 784 + 1 * (x 2).val = (k 2).val; omega

/-- The same for the second input, the cluster centres. -/
theorem blkC_apply (c : Dev nD) (t : Fin cfg1.N) (x : S8x128x784.Idx) (k : S256x128x784.Idx)
    (h0 : (k 0).val = win1_1.index t (0 : Fin 3) * 8 + (x 0).val) (h1 : (k 1).val = win1_1.index t (1 : Fin 3) * 128 + (x 1).val)
    (h2 : (k 2).val = win1_1.index t (2 : Fin 3) * 784 + (x 2).val) :
    (iblk1 V c 1 t : Vec Ideal S8x128x784 .f32) x = (V c main_arg3 : S256x128x784.Idx → Elt Ideal .f32) k := by
  unfold iblk1
  rw [View.read_apply]
  show V c main_arg3 _ = V c main_arg3 _
  congr 1
  funext a
  apply Fin.ext
  match a with
  | ⟨0, _⟩ => show win1_1.index t (0 : Fin 3) * 8 + 1 * (x 0).val = (k 0).val; omega
  | ⟨1, _⟩ => show win1_1.index t (1 : Fin 3) * 128 + 1 * (x 1).val = (k 1).val; omega
  | ⟨2, _⟩ => show win1_1.index t (2 : Fin 3) * 784 + 1 * (x 2).val = (k 2).val; omega

/-- The distance payload of point `t` at (b, d, c', n) is the distance array at (b, d, 8 t + c', n). -/
theorem entry (c : Dev nD) (t : Fin cfg1.N) (b : Fin 8) (d : Fin 16) (cc : Fin 8) (n : Fin 128) (q : Fin 256)
    (hq : q.val = win1_2.index t (2 : Fin 4) * 8 + cc.val) :
    Gen.k1_pay1 (iblk1 V c 0 t) (iblk1 V c 1 t) (ix4 b d cc n)
      = distArray (V c main_v2) (V c main_arg3) (ix4 b d q n) := by
  obtain ⟨a0, a1, a2, c0, c1, c2, -⟩ := idx_facts t
  refine (ReadsDist.dist_apply (iblk1 V c 0 t) (iblk1 V c 1 t) b d cc n).trans ?_
  unfold distArray slabRow
  refine distEntry_congr (funext fun k => blkA_apply V c t _ _ ?_ ?_ ?_) (funext fun k => blkC_apply V c t _ _ ?_ ?_ ?_)
  · show q.val = win1_0.index t (0 : Fin 3) * 8 + cc.val
    omega
  · show b.val * 16 + d.val = win1_0.index t (1 : Fin 3) * 128 + (b.val * 16 + d.val)
    omega
  · show k.val = win1_0.index t (2 : Fin 3) * 784 + k.val
    omega
  · show q.val = win1_1.index t (0 : Fin 3) * 8 + cc.val
    omega
  · show n.val = win1_1.index t (1 : Fin 3) * 128 + n.val
    omega
  · show k.val = win1_1.index t (2 : Fin 3) * 784 + k.val
    omega

/-- WHAT POINT `t` WRITES BACK TO THE FIRST OUTPUT is block `t` of the distance array. -/
theorem flushed_dist (c : Dev nD) (t : Fin cfg1.N) :
    (dat1 V c).flushed 2 t
      = ((cfg1.win 2).blk t).view.read (Elt Ideal) (distArray (V c main_v2) (V c main_arg3)) := by
  show (cfg1.win 2).cut (grid1.coords t) ((dat1 V c).after 2 t) = _
  rw [after1_2]
  unfold out1_2
  rw [View.canon_unit_zero hz4]
  simp only [View.ld_unit_zero (S := S8x128x784) hz3]
  obtain ⟨-, -, -, -, -, -, o0, o1, o3, o2, -⟩ := idx_facts t
  funext j
  obtain ⟨b, d, cc, n, rfl⟩ : ∃ (b : Fin 8) (d : Fin 16) (cc : Fin 8) (n : Fin 128), j = ix4 b d cc n :=
    ⟨j 0, j 1, j 2, j 3, eq_ix4 j⟩
  show Gen.k1_pay1 (iblk1 V c 0 t) (iblk1 V c 1 t) (ix4 b d cc n)
    = distArray (V c main_v2) (V c main_arg3) (((cfg1.win 2).blk t).view.emb (ix4 b d cc n))
  have hcc : cc.val < 8 := cc.isLt
  refine (entry V c t b d cc n ⟨win1_2.index t (2 : Fin 4) * 8 + cc.val, by omega⟩ rfl).trans
    (congrArg (distArray (V c main_v2) (V c main_arg3)) (funext fun a => Fin.ext ?_))
  match a with
  | ⟨0, _⟩ => show b.val = win1_2.index t (0 : Fin 4) * 8 + 1 * b.val; omega
  | ⟨1, _⟩ => show d.val = win1_2.index t (1 : Fin 4) * 16 + 1 * d.val; omega
  | ⟨2, _⟩ => show win1_2.index t (2 : Fin 4) * 8 + cc.val = win1_2.index t (2 : Fin 4) * 8 + 1 * cc.val; omega
  | ⟨3, _⟩ => show n.val = win1_2.index t (3 : Fin 4) * 128 + 1 * n.val; omega

/-- WHAT POINT `t` WRITES BACK TO THE SECOND OUTPUT is block `t` of the softmax of the distance array. -/
theorem flushed_soft (c : Dev nD) (t : Fin cfg1.N) :
    (dat1 V c).flushed 3 t
      = ((cfg1.win 3).blk t).view.read (Elt Ideal) (softArray (distArray (V c main_v2) (V c main_arg3))) := by
  show (cfg1.win 3).cut (grid1.coords t) ((dat1 V c).after 3 t) = _
  rw [after1_3]
  unfold out1_3
  rw [View.canon_unit_zero hz4]
  simp only [View.ld_unit_zero (S := S8x128x784) hz3]
  obtain ⟨-, -, -, -, -, -, -, -, -, o2, p0, p1, p3, p2⟩ := idx_facts t
  funext j
  obtain ⟨b, d, cc, n, rfl⟩ : ∃ (b : Fin 8) (d : Fin 16) (cc : Fin 8) (n : Fin 128), j = ix4 b d cc n :=
    ⟨j 0, j 1, j 2, j 3, eq_ix4 j⟩
  show Gen.k1_pay2 (iblk1 V c 0 t) (iblk1 V c 1 t) (ix4 b d cc n)
    = softArray (distArray (V c main_v2) (V c main_arg3)) (((cfg1.win 3).blk t).view.emb (ix4 b d cc n))
  have hcc : cc.val < 8 := cc.isLt
  refine (ReadsDist.soft_apply (iblk1 V c 0 t) (iblk1 V c 1 t) b d cc n).trans ?_
  unfold softArray
  refine softRow_congr (funext fun l =>
    (entry V c t b d cc l ⟨win1_2.index t (2 : Fin 4) * 8 + cc.val, by omega⟩ rfl).trans
      (congrArg (distArray (V c main_v2) (V c main_arg3)) (funext fun a => Fin.ext ?_))) (Fin.ext ?_)
  · match a with
    | ⟨0, _⟩ => show b.val = win1_3.index t (0 : Fin 4) * 8 + 1 * b.val; omega
    | ⟨1, _⟩ => show d.val = win1_3.index t (1 : Fin 4) * 16 + 1 * d.val; omega
    | ⟨2, _⟩ => show win1_2.index t (2 : Fin 4) * 8 + cc.val = win1_3.index t (2 : Fin 4) * 8 + 1 * cc.val; omega
    | ⟨3, _⟩ => rfl
  · show n.val = win1_3.index t (3 : Fin 4) * 128 + 1 * n.val
    omega

/-- An index of the first output is in point `t`'s block iff each coordinate is in the block's range on its axis. -/
theorem mem_blk2 (t : Fin cfg1.N) (i : S8x16x256x128.Idx) :
    i ∈ ((cfg1.win 2).blk t).view.set ↔ ∀ a : Fin 4, win1_2.index t a * S8x16x8x128.size a ≤ (i a).val
      ∧ (i a).val < win1_2.index t a * S8x16x8x128.size a + S8x16x8x128.size a := by
  show i ∈ ((View.whole main_v3_0).slice (win1_2.rect t)).set ↔ _
  rw [View.set_slice_whole, Rect.mem_set_unit]
  exact Iff.rfl

/-- The same for the second output. -/
theorem mem_blk3 (t : Fin cfg1.N) (i : S8x16x256x128.Idx) :
    i ∈ ((cfg1.win 3).blk t).view.set ↔ ∀ a : Fin 4, win1_3.index t a * S8x16x8x128.size a ≤ (i a).val
      ∧ (i a).val < win1_3.index t a * S8x16x8x128.size a + S8x16x8x128.size a := by
  show i ∈ ((View.whole main_v3_1).slice (win1_3.rect t)).set ↔ _
  rw [View.set_slice_whole, Rect.mem_set_unit]
  exact Iff.rfl

/-- The 32 blocks tile the slab axis of the first output: slab s lies in block s / 8. -/
theorem cover2 (i : S8x16x256x128.Idx) :
    ∃ t : Fin cfg1.N, (cfg1.win 2).flush t = true ∧ i ∈ ((cfg1.win 2).blk t).view.set := by
  have h0 : (i 0).val < 8 := (i 0).isLt
  have h1 : (i 1).val < 16 := (i 1).isLt
  have h2 : (i 2).val < 256 := (i 2).isLt
  have h3 : (i 3).val < 128 := (i 3).isLt
  obtain ⟨t, ht, -⟩ := idx_onto ⟨(i 2).val / 8, by omega⟩
  have q0 : win1_2.index t (0 : Fin 4) = 0 := congrFun ht 0
  have q1 : win1_2.index t (1 : Fin 4) = 0 := congrFun ht 1
  have q2 : win1_2.index t (2 : Fin 4) = (i 2).val / 8 := congrFun ht 2
  have q3 : win1_2.index t (3 : Fin 4) = 0 := congrFun ht 3
  refine ⟨t, flush1_2 t, ?_⟩
  rw [mem_blk2]
  intro a
  match a with
  | ⟨0, _⟩ => show win1_2.index t (0 : Fin 4) * 8 ≤ (i 0).val ∧ (i 0).val < win1_2.index t (0 : Fin 4) * 8 + 8; omega
  | ⟨1, _⟩ => show win1_2.index t (1 : Fin 4) * 16 ≤ (i 1).val ∧ (i 1).val < win1_2.index t (1 : Fin 4) * 16 + 16; omega
  | ⟨2, _⟩ => show win1_2.index t (2 : Fin 4) * 8 ≤ (i 2).val ∧ (i 2).val < win1_2.index t (2 : Fin 4) * 8 + 8; omega
  | ⟨3, _⟩ => show win1_2.index t (3 : Fin 4) * 128 ≤ (i 3).val ∧ (i 3).val < win1_2.index t (3 : Fin 4) * 128 + 128; omega

/-- And of the second output. -/
theorem cover3 (i : S8x16x256x128.Idx) :
    ∃ t : Fin cfg1.N, (cfg1.win 3).flush t = true ∧ i ∈ ((cfg1.win 3).blk t).view.set := by
  have h0 : (i 0).val < 8 := (i 0).isLt
  have h1 : (i 1).val < 16 := (i 1).isLt
  have h2 : (i 2).val < 256 := (i 2).isLt
  have h3 : (i 3).val < 128 := (i 3).isLt
  obtain ⟨t, -, ht⟩ := idx_onto ⟨(i 2).val / 8, by omega⟩
  have q0 : win1_3.index t (0 : Fin 4) = 0 := congrFun ht 0
  have q1 : win1_3.index t (1 : Fin 4) = 0 := congrFun ht 1
  have q2 : win1_3.index t (2 : Fin 4) = (i 2).val / 8 := congrFun ht 2
  have q3 : win1_3.index t (3 : Fin 4) = 0 := congrFun ht 3
  refine ⟨t, flush1_3 t, ?_⟩
  rw [mem_blk3]
  intro a
  match a with
  | ⟨0, _⟩ => show win1_3.index t (0 : Fin 4) * 8 ≤ (i 0).val ∧ (i 0).val < win1_3.index t (0 : Fin 4) * 8 + 8; omega
  | ⟨1, _⟩ => show win1_3.index t (1 : Fin 4) * 16 ≤ (i 1).val ∧ (i 1).val < win1_3.index t (1 : Fin 4) * 16 + 16; omega
  | ⟨2, _⟩ => show win1_3.index t (2 : Fin 4) * 8 ≤ (i 2).val ∧ (i 2).val < win1_3.index t (2 : Fin 4) * 8 + 8; omega
  | ⟨3, _⟩ => show win1_3.index t (3 : Fin 4) * 128 ≤ (i 3).val ∧ (i 3).val < win1_3.index t (3 : Fin 4) * 128 + 128; omega

/-- THE FIRST OUTPUT after the second call: the distances of the region-entry contents. -/
theorem final_dist (c : Dev nD) :
    (dat1 V c).arrAt 2 cfg1.N = distArray (V c main_v2) (V c main_arg3) :=
  (dat1 V c).arrAt_eq_of_cover 2 _ (fun t _ => flushed_dist V c t) cover2

/-- THE SECOND OUTPUT: their softmax along the centres. -/
theorem final_soft (c : Dev nD) :
    (dat1 V c).arrAt 3 cfg1.N = softArray (distArray (V c main_v2) (V c main_arg3)) :=
  (dat1 V c).arrAt_eq_of_cover 3 _ (fun t _ => flushed_soft V c t) cover3

end Cert.KernelIdeal.ArrayDist

end
-- ==== Proof.LibFlags.lean ====
import Idealize.ShloMosaic.PureOps
import Idealize.ShloMosaic.Lib.ValueIdx

/-!
# One-bit flags and the selects they drive

General facts about the one-bit results of integer comparisons and the logic on them, for any width of word where
stated so: a select driven by the equality flag of two words is an if-then-else on their equality; the flags of
`eq` and `slt` as decidable propositions; `or` and `xor`-with-one on flags as disjunction and negation.
-/

namespace Cert.Lib.Flags

open Idealize.ShloMosaic Idealize.ShloMosaic.ValueIdx

/-- The equality flag of two words is one exactly when they are equal. -/
theorem cmpi_eq_eq_one_iff {w : ℕ} (x y : BitVec w) : IntOp.cmpi .eq x y = 1#1 ↔ x = y := by
  show BitVec.ofBool (x == y) = 1#1 ↔ x = y
  by_cases h : x = y
  · simp [h]
  · have : (x == y) = false := by rw [beq_eq_false_iff_ne]; exact h
    simp [this, h]

/-- A flag is one or zero. -/
theorem flag_cases (f : BitVec 1) : f = 1#1 ∨ f = 0#1 := by
  by_cases h : f = 1#1
  · exact Or.inl h
  · exact Or.inr (eq_zero_of_ne_one h)

/-- A select driven by a flag is an if-then-else on the flag being one. -/
theorem select_eq_ite {α : Type} (f : BitVec 1) (u v : α) : Scalar.select f u v = if f = 1#1 then u else v := by
  rcases flag_cases f with h | h
  · rw [h, select_one, if_pos rfl]
  · rw [h, select_zero, if_neg (by decide)]

/-- A select driven by the equality flag of two words is an if-then-else on their equality. -/
theorem select_cmpi_eq {α : Type} {w : ℕ} (x y : BitVec w) (u v : α) :
    Scalar.select (IntOp.cmpi .eq x y) u v = if x = y then u else v := by
  rw [select_eq_ite]
  exact if_congr (cmpi_eq_eq_one_iff x y) rfl rfl

/-- The `or` of two flags is one exactly when one of them is. -/
theorem ori_eq_one_iff (a b : BitVec 1) : IntOp.ori a b = 1#1 ↔ a = 1#1 ∨ b = 1#1 := by
  revert a b; decide

/-- A flag `xor`ed with one is one exactly when the flag is not. -/
theorem xori_one_eq_one_iff (a : BitVec 1) : IntOp.xori a 1#1 = 1#1 ↔ ¬ a = 1#1 := by
  revert a; decide

/-- The signed less-than flag of the words of two naturals below `2^31` is one exactly when the first is smaller. -/
theorem cmpi_slt_ofNat_eq_one_iff {a b : ℕ} (ha : a < 2 ^ 31) (hb : b < 2 ^ 31) :
    IntOp.cmpi .slt (BitVec.ofNat 32 a) (BitVec.ofNat 32 b) = 1#1 ↔ a < b := by
  show BitVec.ofBool ((BitVec.ofNat 32 a).slt (BitVec.ofNat 32 b)) = 1#1 ↔ a < b
  have ea : (BitVec.ofNat 32 a).toInt = (a : ℤ) := by
    have hn : (BitVec.ofNat 32 a).toNat = a := by rw [BitVec.toNat_ofNat]; exact Nat.mod_eq_of_lt (by omega)
    rw [BitVec.toInt_eq_toNat_of_lt (by rw [hn]; omega), hn]
  have eb : (BitVec.ofNat 32 b).toInt = (b : ℤ) := by
    have hn : (BitVec.ofNat 32 b).toNat = b := by rw [BitVec.toNat_ofNat]; exact Nat.mod_eq_of_lt (by omega)
    rw [BitVec.toInt_eq_toNat_of_lt (by rw [hn]; omega), hn]
  rw [BitVec.slt, ea, eb]
  by_cases h : a < b
  · simp [h]
  · simp [h]

end Cert.Lib.Flags
-- ==== Proof.LibWords.lean ====
import Idealize.ShloMosaic.PureOps

/-!
# Small 32-bit words as the numbers they hold

A natural number below `2^31` written as a 32-bit word is non-negative as a signed integer and reads back as itself;
two numbers below `2^32` give equal words only when they are equal; and a word-level sum or product of small numbers
is the word of the sum or product. With these an index computed in 32-bit arithmetic is compared as a number.
-/

namespace Idealize.ShloMosaic.Words

/-- A number below `2^32` reads back from its word. -/
theorem toNat_ofNat_of_lt {n : ℕ} (h : n < 2 ^ 32) : (BitVec.ofNat 32 n).toNat = n := by
  rw [BitVec.toNat_ofNat]; exact Nat.mod_eq_of_lt h

/-- A number below `2^31` reads back from its word as a signed integer. -/
theorem toInt_ofNat_of_lt {n : ℕ} (h : n < 2 ^ 31) : (BitVec.ofNat 32 n).toInt = (n : ℤ) := by
  have hn : (BitVec.ofNat 32 n).toNat = n := toNat_ofNat_of_lt (by omega)
  rw [BitVec.toInt_eq_toNat_of_lt (by rw [hn]; omega), hn]

/-- Numbers below `2^32` with equal words are equal. -/
theorem ofNat_inj_of_lt {a b : ℕ} (ha : a < 2 ^ 32) (hb : b < 2 ^ 32) : BitVec.ofNat 32 a = BitVec.ofNat 32 b ↔ a = b := by
  constructor
  · intro h
    have := congrArg BitVec.toNat h
    rwa [toNat_ofNat_of_lt ha, toNat_ofNat_of_lt hb] at this
  · intro h; rw [h]

/-- A small number's word is not below zero as a signed integer. -/
theorem cmpi_slt_ofNat_zero {n : ℕ} (h : n < 2 ^ 31) : IntOp.cmpi .slt (BitVec.ofNat 32 n) 0#32 = 0#1 := by
  show BitVec.ofBool ((BitVec.ofNat 32 n).slt 0#32) = 0#1
  have : (BitVec.ofNat 32 n).slt 0#32 = false := by
    rw [BitVec.slt, toInt_ofNat_of_lt h]
    simp
  rw [this]; rfl

/-- Equality of the words of two numbers below `2^32` is equality of the numbers. -/
theorem cmpi_eq_ofNat {a b : ℕ} (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · rw [if_pos h, h]; simp
  · rw [if_neg h]
    have : (BitVec.ofNat 32 a == BitVec.ofNat 32 b) = false := by
      rw [beq_eq_false_iff_ne]; exact fun e => h ((ofNat_inj_of_lt ha hb).mp e)
    rw [this]; rfl

end Idealize.ShloMosaic.Words
-- ==== Proof.ReadsSelf.lean ====
/-
  The third call's block, one entry at a time. The body loads a block of the cluster centres (8 slabs x 128 rows x 784),
  forms for every slab the table of expanded squared distances among its own rows, puts the diagonal to zero (the row
  and column counters compared), floors, and takes the root: entry (c, r, n) is the floored root of zero when r = n,
  and of |row r|^2 + |row n|^2 - 2 <row r, row n> otherwise.
-/
import proofs.«160886_j21612275434146_2_alg».proof.Proof.ReadsDist
import proofs.«160886_j21612275434146_2_alg».proof.Proof.LibFlags
import proofs.«160886_j21612275434146_2_alg».proof.Proof.LibWords

noncomputable section

namespace Cert.KernelIdeal.ReadsSelf

open Idealize.ShloMosaic Idealize.ShloMosaic.TcCoe Idealize.ShloMosaic.ValueIdx
open Cert.KernelIdeal Cert.Spec Cert.KernelIdeal.ReadsDist

/-- A select between two values driven by "row counter = column counter" is an if-then-else on the two coordinates. -/
theorem diagSelect {α : Type} (h1 : S8x128x128.Iotas .tc 32 [1]) (h2 : S8x128x128.Iotas .tc 32 [2]) (c : Fin 8) (r n : Fin 128)
    (u v : α) :
    Scalar.select (cmpi .eq (iota .tc S8x128x128 32 [1] h1) (iota .tc S8x128x128 32 [2] h2) (ix3 c r n)) u v
      = if r.val = n.val then u else v := by
  show Scalar.select (IntOp.cmpi .eq (iota .tc S8x128x128 32 [1] h1 (ix3 c r n)) (iota .tc S8x128x128 32 [2] h2 (ix3 c r n))) u v = _
  rw [iota_single_apply, iota_single_apply, Cert.Lib.Flags.select_cmpi_eq]
  have hr : r.val < 2 ^ 32 := by have := r.isLt; omega
  have hn : n.val < 2 ^ 32 := by have := n.isLt; omega
  exact if_congr (Words.ofNat_inj_of_lt hr hn) rfl rfl

/-- THE PAYLOAD AT AN ENTRY. -/
theorem self_apply (x0 : Vec Ideal S8x128x784 .f32) (c : Fin 8) (r n : Fin 128) :
    Gen.k2_pay1 x0 (ix3 c r n)
      = rootFloor (if r.val = n.val then Ideal.ofBits .f32 0x00000000#32
          else sqDist (fun k => x0 (ix3 c r k)) (fun k => x0 (ix3 c n k))) := by
  unfold Gen.k2_pay1
  simp only [maximumf_apply, select_apply, subf_apply, addf_apply, mulf_apply, spreadColumn, spreadRow, asColumn, asRow,
    broadcast_apply, truncf_apply, sqrt, Ideal.sqrt_def]
  rw [diagSelect, gram, rowSum, rowSum]
  simp only [mulf_apply, truncf_apply]
  rfl

end Cert.KernelIdeal.ReadsSelf

end
-- ==== Proof.ArraySelf.lean ====
/-
  The third call's result array. The grid is the 32 blocks of 8 slabs of the cluster centres; point t reads slabs
  8 t .. 8 t + 7 whole and writes the same slabs of the 256 x 128 x 128 result. What a point writes back is its block
  of ONE whole-array function, the guarded self distances (`selfDistGuarded`), and the 32 blocks tile the slab axis.
-/
import proofs.«160886_j21612275434146_2_alg».proof.Proof.Gen.KernelIdeal.Frame
import proofs.«160886_j21612275434146_2_alg».proof.Proof.ReadsSelf
import proofs.«160886_j21612275434146_2_alg».proof.Proof.SpecArrays
import proofs.«160886_j21612275434146_2_alg».proof.Proof.SpecCongr

set_option maxRecDepth 16384

noncomputable section

namespace Cert.KernelIdeal.ArraySelf

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps over the grid: the input's and the output's block are both (t, 0, 0). -/
theorem idx_facts : ∀ t : Fin cfg2.N,
    win2_0.index t (0 : Fin 3) = win2_1.index t (0 : Fin 3) ∧ win2_0.index t (1 : Fin 3) = 0 ∧ win2_0.index t (2 : Fin 3) = 0
    ∧ win2_1.index t (1 : Fin 3) = 0 ∧ win2_1.index t (2 : Fin 3) = 0 ∧ win2_1.index t (0 : Fin 3) ≤ 31 :=
  (by decide +kernel : ∀ t : Fin grid2.N, _)

/-- Every slab block of the output is some point's. -/
theorem idx_onto : ∀ q : Fin 32, ∃ t : Fin cfg2.N, win2_1.index t = ![q.val, 0, 0] :=
  (by decide +kernel : ∀ q : Fin 32, ∃ t : Fin grid2.N, win2_1.index t = ![q.val, 0, 0])

/-- An entry of the input's block at a point is the array at the block's offset plus the entry's coordinates. -/
theorem blk_apply (c : Dev nD) (t : Fin cfg2.N) (x : S8x128x784.Idx) (k : S256x128x784.Idx)
    (h0 : (k 0).val = win2_0.index t (0 : Fin 3) * 8 + (x 0).val) (h1 : (k 1).val = win2_0.index t (1 : Fin 3) * 128 + (x 1).val)
    (h2 : (k 2).val = win2_0.index t (2 : Fin 3) * 784 + (x 2).val) :
    (iblk2 V c 0 t : Vec Ideal S8x128x784 .f32) x = (V c main_arg3 : S256x128x784.Idx → Elt Ideal .f32) k := by
  unfold iblk2
  rw [View.read_apply]
  show V c main_arg3 _ = V c main_arg3 _
  congr 1
  funext a
  apply Fin.ext
  match a with
  | ⟨0, _⟩ => show win2_0.index t (0 : Fin 3) * 8 + 1 * (x 0).val = (k 0).val; omega
  | ⟨1, _⟩ => show win2_0.index t (1 : Fin 3) * 128 + 1 * (x 1).val = (k 1).val; omega
  | ⟨2, _⟩ => show win2_0.index t (2 : Fin 3) * 784 + 1 * (x 2).val = (k 2).val; omega

/-- WHAT POINT `t` WRITES BACK is block `t` of the guarded self distances. -/
theorem flushed_eq (c : Dev nD) (t : Fin cfg2.N) :
    (dat2 V c).flushed 1 t = ((cfg2.win 1).blk t).view.read (Elt Ideal) (selfDistGuarded (V c main_arg3)) := by
  show (cfg2.win 1).cut (grid2.coords t) ((dat2 V c).after 1 t) = _
  rw [after2_1]
  unfold out2_1
  rw [View.canon_unit_zero hz3]
  simp only [View.ld_unit_zero (S := S8x128x784) hz3]
  obtain ⟨a0, a1, a2, o1, o2, o0⟩ := idx_facts t
  funext j
  obtain ⟨cc, r, n, rfl⟩ : ∃ (cc : Fin 8) (r n : Fin 128), j = ix3 cc r n := ⟨j 0, j 1, j 2, eq_ix3 j⟩
  show Gen.k2_pay1 (iblk2 V c 0 t) (ix3 cc r n)
    = selfDistGuarded (V c main_arg3) (((cfg2.win 1).blk t).view.emb (ix3 cc r n))
  refine (ReadsSelf.self_apply (iblk2 V c 0 t) cc r n).trans ?_
  unfold selfDistGuarded slabRow
  refine congrArg rootFloor (if_congr ?_ rfl (sqDist_congr (funext fun k => blk_apply V c t _ _ ?_ ?_ ?_)
    (funext fun k => blk_apply V c t _ _ ?_ ?_ ?_)))
  · show r.val = n.val ↔ win2_1.index t (1 : Fin 3) * 128 + 1 * r.val = win2_1.index t (2 : Fin 3) * 128 + 1 * n.val
    omega
  · show win2_1.index t (0 : Fin 3) * 8 + 1 * cc.val = win2_0.index t (0 : Fin 3) * 8 + cc.val
    omega
  · show win2_1.index t (1 : Fin 3) * 128 + 1 * r.val = win2_0.index t (1 : Fin 3) * 128 + r.val
    omega
  · show k.val = win2_0.index t (2 : Fin 3) * 784 + k.val
    omega
  · show win2_1.index t (0 : Fin 3) * 8 + 1 * cc.val = win2_0.index t (0 : Fin 3) * 8 + cc.val
    omega
  · show win2_1.index t (2 : Fin 3) * 128 + 1 * n.val = win2_0.index t (1 : Fin 3) * 128 + n.val
    omega
  · show k.val = win2_0.index t (2 : Fin 3) * 784 + k.val
    omega

/-- An index of the array is in point `t`'s block iff each coordinate is in the block's range on its axis. -/
theorem mem_blk (t : Fin cfg2.N) (i : S256x128x128.Idx) :
    i ∈ ((cfg2.win 1).blk t).view.set ↔ ∀ a : Fin 3, win2_1.index t a * S8x128x128.size a ≤ (i a).val
      ∧ (i a).val < win2_1.index t a * S8x128x128.size a + S8x128x128.size a := by
  show i ∈ ((View.whole main_v4).slice (win2_1.rect t)).set ↔ _
  rw [View.set_slice_whole, Rect.mem_set_unit]
  exact Iff.rfl

/-- The 32 blocks tile the slab axis: slab s lies in block s / 8. -/
theorem cover (i : S256x128x128.Idx) :
    ∃ t : Fin cfg2.N, (cfg2.win 1).flush t = true ∧ i ∈ ((cfg2.win 1).blk t).view.set := by
  have h0 : (i 0).val < 256 := (i 0).isLt
  have h1 : (i 1).val < 128 := (i 1).isLt
  have h2 : (i 2).val < 128 := (i 2).isLt
  obtain ⟨t, ht⟩ := idx_onto ⟨(i 0).val / 8, by omega⟩
  have q0 : win2_1.index t (0 : Fin 3) = (i 0).val / 8 := congrFun ht 0
  have q1 : win2_1.index t (1 : Fin 3) = 0 := congrFun ht 1
  have q2 : win2_1.index t (2 : Fin 3) = 0 := congrFun ht 2
  refine ⟨t, flush2_1 t, ?_⟩
  rw [mem_blk]
  intro a
  match a with
  | ⟨0, _⟩ => show win2_1.index t (0 : Fin 3) * 8 ≤ (i 0).val ∧ (i 0).val < win2_1.index t (0 : Fin 3) * 8 + 8; omega
  | ⟨1, _⟩ => show win2_1.index t (1 : Fin 3) * 128 ≤ (i 1).val ∧ (i 1).val < win2_1.index t (1 : Fin 3) * 128 + 128; omega
  | ⟨2, _⟩ => show win2_1.index t (2 : Fin 3) * 128 ≤ (i 2).val ∧ (i 2).val < win2_1.index t (2 : Fin 3) * 128 + 128; omega

/-- THE ARRAY after the third call: the guarded self distances of the region-entry cluster centres. -/
theorem final (c : Dev nD) : (dat2 V c).arrAt 1 cfg2.N = selfDistGuarded (V c main_arg3) :=
  (dat2 V c).arrAt_eq_of_cover 1 _ (fun t _ => flushed_eq V c t) cover

end Cert.KernelIdeal.ArraySelf

end
-- ==== Proof.KernelValue.lean ====
/-
  The idealized kernel's three result arrays as functions of the launch memory. The contents at the last boundary
  are walked back through the three calls: the third call's output is the guarded self distances of the cluster
  centres it finds (the argument, which no call writes); the second call's two outputs, which the third leaves alone,
  are the distance table and its softmax of the first call's output and the cluster centres; the first call's output is
  the normalised re-laid input of the argument and the two parameter vectors as the two host reshapes present them
  (a 256-vector seen as 1 x 256 reads the vector at the column).
-/
import proofs.«160886_j21612275434146_2_alg».proof.Proof.KernelRun
import proofs.«160886_j21612275434146_2_alg».proof.Proof.ArrayNorm
import proofs.«160886_j21612275434146_2_alg».proof.Proof.ArrayDist
import proofs.«160886_j21612275434146_2_alg».proof.Proof.ArraySelf
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen Cert.Spec

variable (m : (ℓ : Loc nD τ sig) → Buf (Elt Ideal) ℓ) (ρ : Dev nD → PrngReg)

/-! ## The arguments as each call finds them -/

theorem entry0_arg0 (c : Dev nD) : V1 m ρ c main_arg0 = m ((c : Thread nD τ).loc main_arg0) := by
  have e := W4_main_arg0 m ρ c
  rw [W4_of_ne m ρ c main_arg0 (by decide), W3_of_ne m ρ c main_arg0 (by decide),
    (W2_arr m ρ c 0).trans (((dat0 (V1 m ρ) c).arrAt_in 0 rfl _).trans (A_eq0 (V1 m ρ) c 0))] at e
  exact e

theorem entry2_arg3 (c : Dev nD) : V3 m ρ c main_arg3 = m ((c : Thread nD τ).loc main_arg3) := by
  have e := W4_main_arg3 m ρ c
  rw [(W4_arr m ρ c 0).trans (((dat2 (V3 m ρ) c).arrAt_in 0 rfl _).trans (A_eq2 (V3 m ρ) c 0))] at e
  exact e

theorem entry1_arg3 (c : Dev nD) : V2 m ρ c main_arg3 = m ((c : Thread nD τ).loc main_arg3) := by
  have e := entry2_arg3 m ρ c
  rw [show V3 m ρ c main_arg3 = W3 m ρ c (Proc.devRef .tc main_arg3) from rfl,
    (W3_arr m ρ c 1).trans (((dat1 (V2 m ρ) c).arrAt_in 1 rfl _).trans (A_eq1 (V2 m ρ) c 1))] at e
  exact e

/-- The scale as the first call finds it: the argument vector seen as one row. -/
theorem entry0_scale (c : Dev nD) (k : Fin 256) :
    (V1 m ρ c main_v0 : S1x256.Idx → Elt Ideal .f32) (ix2 (0 : Fin 1) k)
      = (m ((c : Thread nD τ).loc main_arg1) : S256.Idx → Elt Ideal .f32) (ix1 k) := by
  have e : (V1 m ρ c main_v0 : S1x256.Idx → Elt Ideal .f32)
      = shapeCast S1x256 (m ((c : Thread nD τ).loc main_arg1) : S256.Idx → Elt Ideal .f32) shapeCasts_S256_S1x256 := by
    show StableHlo.after hostOps0 (W0 m ρ c) (Proc.devRef .tc main_v0) = _
    after_results
    rfl
  rw [e]
  exact shapeCast_a_1a_apply _ _ (0 : Fin 1) k

/-- The shift likewise. -/
theorem entry0_shift (c : Dev nD) (k : Fin 256) :
    (V1 m ρ c main_v1 : S1x256.Idx → Elt Ideal .f32) (ix2 (0 : Fin 1) k)
      = (m ((c : Thread nD τ).loc main_arg2) : S256.Idx → Elt Ideal .f32) (ix1 k) := by
  have e : (V1 m ρ c main_v1 : S1x256.Idx → Elt Ideal .f32)
      = shapeCast S1x256 (m ((c : Thread nD τ).loc main_arg2) : S256.Idx → Elt Ideal .f32) shapeCasts_S256_S1x256 := by
    show StableHlo.after hostOps0 (W0 m ρ c) (Proc.devRef .tc main_v1) = _
    after_results
    rfl
  rw [e]
  exact shapeCast_a_1a_apply _ _ (0 : Fin 1) k

/-! ## The results -/

/-- The normalised, re-laid input of the launch memory. -/
abbrev normOf (c : Dev nD) : S256x128x784.Idx → EReal :=
  normArray (m ((c : Thread nD τ).loc main_arg0))
    (fun k => (m ((c : Thread nD τ).loc main_arg1) : S256.Idx → Elt Ideal .f32) (ix1 k))
    (fun k => (m ((c : Thread nD τ).loc main_arg2) : S256.Idx → Elt Ideal .f32) (ix1 k))

/-- The first call's output, as the second call finds it. -/
theorem entry1_norm (c : Dev nD) : V2 m ρ c main_v2 = normOf m c := by
  show W2 m ρ c (Proc.devRef .tc (Pipeline.arrRef spec0 3)) = _
  rw [W2_arr m ρ c 3, ArrayNorm.final (V1 m ρ) c, entry0_arg0 m ρ c]
  exact congr (congrArg (normArray (m ((c : Thread nD τ).loc main_arg0))) (funext fun k => entry0_scale m ρ c k))
    (funext fun k => entry0_shift m ρ c k)

/-- THE FIRST RESULT: the distance table of the normalised input against the cluster centres. -/
theorem result_dist (c : Dev nD) :
    W4 m ρ c (Proc.devRef .tc main_v3_0) = distArray (normOf m c) (m ((c : Thread nD τ).loc main_arg3)) := by
  rw [W4_of_ne m ρ c main_v3_0 (by decide)]
  show W3 m ρ c (Proc.devRef .tc (Pipeline.arrRef spec1 2)) = _
  rw [W3_arr m ρ c 2, ArrayDist.final_dist (V2 m ρ) c, entry1_norm m ρ c, entry1_arg3 m ρ c]

/-- THE SECOND RESULT: its softmax along the centres. -/
theorem result_soft (c : Dev nD) :
    W4 m ρ c (Proc.devRef .tc main_v3_1) = softArray (distArray (normOf m c) (m ((c : Thread nD τ).loc main_arg3))) := by
  rw [W4_of_ne m ρ c main_v3_1 (by decide)]
  show W3 m ρ c (Proc.devRef .tc (Pipeline.arrRef spec1 3)) = _
  rw [W3_arr m ρ c 3, ArrayDist.final_soft (V2 m ρ) c, entry1_norm m ρ c, entry1_arg3 m ρ c]

/-- THE THIRD RESULT: the guarded self distances of the cluster centres. -/
theorem result_self (c : Dev nD) :
    W4 m ρ c (Proc.devRef .tc main_v4) = selfDistGuarded (m ((c : Thread nD τ).loc main_arg3)) := by
  show W4 m ρ c (Proc.devRef .tc (Pipeline.arrRef spec2 1)) = _
  rw [W4_arr m ρ c 1, ArraySelf.final (V3 m ρ) c, entry2_arg3 m ρ c]

/-- THE KERNEL'S RUN, READ: the three results at their functions of the arguments, the arguments unchanged. -/
theorem run : θ_run defs (onTc (τ := τ) (main (F := Ideal))) ⟨m, fun _ => 0, ρ⟩ (fun r => ∀ c : Dev nD,
      r.2.mem ((c.tc : Thread nD τ).loc main_v3_0) = distArray (normOf m c) (m ((c : Thread nD τ).loc main_arg3))
      ∧ r.2.mem ((c.tc : Thread nD τ).loc main_v3_1)
          = softArray (distArray (normOf m c) (m ((c : Thread nD τ).loc main_arg3)))
      ∧ r.2.mem ((c.tc : Thread nD τ).loc main_v4) = selfDistGuarded (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c).1.trans (result_dist m ρ c), (h c).2.1.trans (result_soft m ρ c), (h c).2.2.1.trans (result_self m ρ c),
        (h c).2.2.2⟩)
    (run_results m ρ)

end Cert.KernelIdeal.Whole

end
-- ==== Proof.RefNorm.lean ====
/-
  The reference's normalised, re-laid input is `normArray`. The reference normalises every channel row of the whole
  input in place (mean, centred squares, variance, inverse root, scale and shift: each a broadcast of a per-row value
  back along the channels), then moves the channel axis to the front and merges (batch, depth) and (height, width).
  Read one operation at a time from the result inwards, entry (c, r, s) is LayerNorm of the row at
  (r / 16, r % 16, s / 28, s % 28) at channel c.
-/
import proofs.«160886_j21612275434146_2_alg».proof.Proof.Gen.ReferenceIdeal.Read
import proofs.«160886_j21612275434146_2_alg».proof.Proof.SpecArrays
import proofs.«160886_j21612275434146_2_alg».proof.Proof.SpecCongr

noncomputable section

namespace Cert.ReferenceIdeal.RefValue

open Idealize.ShloMosaic Idealize.ShloMosaic.TcCoe Idealize.ShloMosaic.ValueIdx
open Cert.ReferenceIdeal Cert.ReferenceIdeal.Read Cert.Spec

/-- The channel row through an entry of the input. -/
def rowOf (x0 : S8x16x28x28x256.Idx → EReal) (j : S8x16x28x28x256.Idx) : Fin 256 → EReal := fun k =>
  x0 (ix5 (⟨(j 0).val, by exact (j 0).isLt⟩ : Fin 8) (⟨(j 1).val, by exact (j 1).isLt⟩ : Fin 16)
    (⟨(j 2).val, by exact (j 2).isLt⟩ : Fin 28) (⟨(j 3).val, by exact (j 3).isLt⟩ : Fin 28) k)

/-- The row's mean, broadcast back along the channels (first use). -/
theorem mean_first (x0 : S8x16x28x28x256.Idx → EReal) (j : S8x16x28x28x256.Idx) :
    val_main_v4 (F := Ideal) x0 j = rowMean (rowOf x0 j) := by
  rw [val_main_v4_apply, val_main_v3_apply, val_main_v1_apply, val_main_v0_apply, val_main_v2_apply, val_main_cst_0_apply, val_main_cst_apply]
  unfold rowMean rowOf
  show Ideal.div (Ideal.ofBits .f32 0x00000000#32 + ∑ k : Fin 256, x0 (idx_main_v0 (idx_main_v1 (idx_main_v4 j)) k))
    (Ideal.ofBits .f32 0x43800000#32) = _
  rw [Ideal.ofBits_zero_f32, zero_add]
  refine congrArg (fun s => Ideal.div s (Ideal.ofBits .f32 0x43800000#32)) (Finset.sum_congr rfl fun k _ =>
    congrArg x0 (funext fun a => Fin.ext (by
      match a with
      | ⟨0, _⟩ => rfl
      | ⟨1, _⟩ => rfl
      | ⟨2, _⟩ => rfl
      | ⟨3, _⟩ => rfl
      | ⟨4, _⟩ => rfl)))

/-- The row's mean, broadcast back along the channels (second use). -/
theorem mean_second (x0 : S8x16x28x28x256.Idx → EReal) (j : S8x16x28x28x256.Idx) :
    val_main_v11 (F := Ideal) x0 j = rowMean (rowOf x0 j) := by
  rw [val_main_v11_apply, val_main_v3_apply, val_main_v1_apply, val_main_v0_apply, val_main_v2_apply, val_main_cst_0_apply, val_main_cst_apply]
  unfold rowMean rowOf
  show Ideal.div (Ideal.ofBits .f32 0x00000000#32 + ∑ k : Fin 256, x0 (idx_main_v0 (idx_main_v1 (idx_main_v11 j)) k))
    (Ideal.ofBits .f32 0x43800000#32) = _
  rw [Ideal.ofBits_zero_f32, zero_add]
  refine congrArg (fun s => Ideal.div s (Ideal.ofBits .f32 0x43800000#32)) (Finset.sum_congr rfl fun k _ =>
    congrArg x0 (funext fun a => Fin.ext (by
      match a with
      | ⟨0, _⟩ => rfl
      | ⟨1, _⟩ => rfl
      | ⟨2, _⟩ => rfl
      | ⟨3, _⟩ => rfl
      | ⟨4, _⟩ => rfl)))

/-- An entry is its row's entry at the entry's channel. -/
theorem entry_rowOf (x0 : S8x16x28x28x256.Idx → EReal) (j : S8x16x28x28x256.Idx) :
    x0 j = rowOf x0 j ⟨(j 4).val, by exact (j 4).isLt⟩ := by
  unfold rowOf
  exact congrArg x0 (funext fun a => Fin.ext (by
    match a with
    | ⟨0, _⟩ => rfl
    | ⟨1, _⟩ => rfl
    | ⟨2, _⟩ => rfl
    | ⟨3, _⟩ => rfl
    | ⟨4, _⟩ => rfl))

/-- The inverse standard deviation of the row, broadcast back along the channels. -/
theorem invStd (x0 : S8x16x28x28x256.Idx → EReal) (j : S8x16x28x28x256.Idx) :
    val_main_v16 (F := Ideal) x0 j
      = Ideal.rsqrt (Ideal.div (∑ k : Fin 256, (rowOf x0 j k - rowMean (rowOf x0 j)) * (rowOf x0 j k - rowMean (rowOf x0 j)))
          (Ideal.ofBits .f32 0x43800000#32) + Ideal.ofBits .f32 0x3727C5AC#32) := by
  rw [val_main_v16_apply, val_main_v15_apply, val_main_v14_apply, val_main_v13_apply, val_main_cst_3_apply, val_main_v10_apply, val_main_v9_apply, val_main_cst_2_apply, val_main_v8_apply, val_main_v7_apply, val_main_cst_1_apply]
  simp only [val_main_v6_apply, val_main_v5_apply, mean_first]
  show Ideal.rsqrt (Ideal.div (Ideal.ofBits .f32 0x00000000#32
      + ∑ k : Fin 256, (x0 (idx_main_v7 (idx_main_v8 (idx_main_v16 j)) k) - rowMean (rowOf x0 (idx_main_v7 (idx_main_v8 (idx_main_v16 j)) k)))
          * (x0 (idx_main_v7 (idx_main_v8 (idx_main_v16 j)) k) - rowMean (rowOf x0 (idx_main_v7 (idx_main_v8 (idx_main_v16 j)) k))))
    (Ideal.ofBits .f32 0x43800000#32) + Ideal.ofBits .f32 0x3727C5AC#32) = _
  rw [Ideal.ofBits_zero_f32, zero_add]
  refine congrArg (fun s => Ideal.rsqrt (Ideal.div s (Ideal.ofBits .f32 0x43800000#32) + Ideal.ofBits .f32 0x3727C5AC#32))
    (Finset.sum_congr rfl fun k _ => ?_)
  have e1 : x0 (idx_main_v7 (idx_main_v8 (idx_main_v16 j)) k) = rowOf x0 j k :=
    congrArg x0 (funext fun a => Fin.ext (by
      match a with
      | ⟨0, _⟩ => rfl
      | ⟨1, _⟩ => rfl
      | ⟨2, _⟩ => rfl
      | ⟨3, _⟩ => rfl
      | ⟨4, _⟩ => rfl))
  have e2 : rowOf x0 (idx_main_v7 (idx_main_v8 (idx_main_v16 j)) k) = rowOf x0 j :=
    funext fun k' => congrArg x0 (funext fun a => Fin.ext (by
      match a with
      | ⟨0, _⟩ => rfl
      | ⟨1, _⟩ => rfl
      | ⟨2, _⟩ => rfl
      | ⟨3, _⟩ => rfl
      | ⟨4, _⟩ => rfl))
  rw [e1, e2]

/-- The normalised input before the re-layout: LayerNorm of the entry's row at the entry's channel. -/
theorem normalised (x0 : S8x16x28x28x256.Idx → EReal) (x1 x2 : S256.Idx → EReal) (j : S8x16x28x28x256.Idx) :
    val_main_v23 (F := Ideal) x0 x1 x2 j
      = lnRow (rowOf x0 j) (fun k => x1 (ix1 k)) (fun k => x2 (ix1 k)) ⟨(j 4).val, by exact (j 4).isLt⟩ := by
  rw [val_main_v23_apply, val_main_v20_apply, val_main_v17_apply, val_main_v12_apply, val_main_v22_apply, val_main_v21_apply, val_main_v19_apply, val_main_v18_apply, mean_second, invStd, entry_rowOf x0 j]
  unfold lnRow
  have eg : x1 (idx_main_v18 (idx_main_v19 j)) = x1 (ix1 ⟨(j 4).val, by exact (j 4).isLt⟩) :=
    congrArg x1 (funext fun a => Fin.ext (by match a with | ⟨0, _⟩ => rfl))
  have eb : x2 (idx_main_v21 (idx_main_v22 j)) = x2 (ix1 ⟨(j 4).val, by exact (j 4).isLt⟩) :=
    congrArg x2 (funext fun a => Fin.ext (by match a with | ⟨0, _⟩ => rfl))
  rw [eg, eb]
  rfl

/-- THE REFERENCE'S RE-LAID NORMALISED INPUT is `normArray` of the input and the two parameter vectors. -/
theorem norm_eq (x0 : S8x16x28x28x256.Idx → EReal) (x1 x2 : S256.Idx → EReal) :
    val_main_v25 (F := Ideal) x0 x1 x2 = normArray x0 (fun k => x1 (ix1 k)) (fun k => x2 (ix1 k)) := by
  funext i
  rw [val_main_v25_apply, val_main_v24_apply, normalised]
  unfold normArray rowOf
  have h0 : (i 0).val < 256 := (i 0).isLt
  have h1 : (i 1).val < 128 := (i 1).isLt
  have h2 : (i 2).val < 784 := (i 2).isLt
  refine lnRow_congr (funext fun k => congrArg x0 (funext fun a => Fin.ext ?_)) rfl rfl (Fin.ext ?_)
  · match a with
    | ⟨0, _⟩ => show (((i 0).val * 128 + (i 1).val) * 784 + (i 2).val) / 12544 % 8 = (i 1).val / 16; omega
    | ⟨1, _⟩ => show (((i 0).val * 128 + (i 1).val) * 784 + (i 2).val) / 784 % 16 = (i 1).val % 16; omega
    | ⟨2, _⟩ => show (((i 0).val * 128 + (i 1).val) * 784 + (i 2).val) / 28 % 28 = (i 2).val / 28; omega
    | ⟨3, _⟩ => show (((i 0).val * 128 + (i 1).val) * 784 + (i 2).val) % 28 = (i 2).val % 28; omega
    | ⟨4, _⟩ => rfl
  · show (((i 0).val * 128 + (i 1).val) * 784 + (i 2).val) / 100352 = (i 0).val
    omega

end Cert.ReferenceIdeal.RefValue

end
-- ==== Proof.RefDist.lean ====
/-
  The reference's three results in terms of the whole-array functions of SpecArrays.lean.
  * Its distance table of the re-laid normalised input against the cluster centres, re-laid to
    (batch, depth, slab, centre), is `distArray` of the two.
  * Its softmax of -32 times that table along the centres is `softArray` of the table.
  * Its distance table of the cluster centres against themselves is `selfDist`.
  Each is read one operation at a time from the result inwards; the host's running sums start from the zero word,
  which adds nothing.
-/
import proofs.«160886_j21612275434146_2_alg».proof.Proof.Gen.ReferenceIdeal.Read
import proofs.«160886_j21612275434146_2_alg».proof.Proof.SpecArrays
import proofs.«160886_j21612275434146_2_alg».proof.Proof.SpecCongr

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Spec

variable (x0 : S8x16x28x28x256.Idx → EReal) (x1 x2 : S256.Idx → EReal) (x3 : S256x128x784.Idx → EReal)

/-- The distance table before its re-layout: entry (c, r, n) is the distance of row r of the normalised input's slab c
    from row n of the centres' slab c. -/
theorem dist_core (i : S256x128x128.Idx) :
    val_main_v41 (F := Ideal) x0 x1 x2 x3 i
      = distEntry (slabRow (val_main_v25 (F := Ideal) x0 x1 x2) ⟨(i 0).val, by exact (i 0).isLt⟩ ⟨(i 1).val, by exact (i 1).isLt⟩)
          (slabRow x3 ⟨(i 0).val, by exact (i 0).isLt⟩ ⟨(i 2).val, by exact (i 2).isLt⟩) := by
  rw [val_main_v41_apply, val_main_v40_apply, val_main_v39_apply, val_main_cst_7_apply, val_main_v38_apply, val_main_v37_apply, val_main_v36_apply, val_main_cst_6_apply, val_main_v35_apply, val_main_v34_apply, val_main_v32_apply, val_main_v28_apply, val_main_v27_apply, val_main_cst_4_apply, val_main_v33_apply, val_main_v31_apply, val_main_v30_apply, val_main_cst_5_apply]
  have ea : ∀ k, idx_main_v27 (idx_main_v28 (idx_main_v32 i)) k
      = ix3 (⟨(i 0).val, by exact (i 0).isLt⟩ : Fin 256) (⟨(i 1).val, by exact (i 1).isLt⟩ : Fin 128) k :=
    fun k => funext fun a => Fin.ext (by match a with | ⟨0, _⟩ => rfl | ⟨1, _⟩ => rfl | ⟨2, _⟩ => rfl)
  have eb : ∀ k, idx_main_v30 (idx_main_v31 (idx_main_v33 i)) k
      = ix3 (⟨(i 0).val, by exact (i 0).isLt⟩ : Fin 256) (⟨(i 2).val, by exact (i 2).isLt⟩ : Fin 128) k :=
    fun k => funext fun a => Fin.ext (by match a with | ⟨0, _⟩ => rfl | ⟨1, _⟩ => rfl | ⟨2, _⟩ => rfl)
  have el : ∀ k, lidx_main_v35 i k
      = ix3 (⟨(i 0).val, by exact (i 0).isLt⟩ : Fin 256) (⟨(i 1).val, by exact (i 1).isLt⟩ : Fin 128) k :=
    fun k => funext fun a => Fin.ext (by match a with | ⟨0, _⟩ => rfl | ⟨1, _⟩ => rfl | ⟨2, _⟩ => rfl)
  have er : ∀ k, ridx_main_v35 i k
      = ix3 (⟨(i 0).val, by exact (i 0).isLt⟩ : Fin 256) (⟨(i 2).val, by exact (i 2).isLt⟩ : Fin 128) k :=
    fun k => funext fun a => Fin.ext (by match a with | ⟨0, _⟩ => rfl | ⟨1, _⟩ => rfl | ⟨2, _⟩ => rfl)
  unfold distEntry rootFloor sqDist slabRow
  simp only [val_main_v26_apply, val_main_v29_apply, Ideal.hostUnary_sqrt_def, Ideal.hostUnary_exp_def, Ideal.hostDivf_def, Ideal.maximumf_def, Ideal.subf_def, Ideal.mulf_def, Ideal.addf_def, Ideal.ofBits_def, Ideal.ofBits_zero_f32, zero_add, ea, eb, el, er]

/-- THE REFERENCE'S FIRST RESULT is `distArray` of its re-laid normalised input and the cluster centres. -/
theorem dist_eq :
    val_main_v43 (F := Ideal) x0 x1 x2 x3 = distArray (val_main_v25 (F := Ideal) x0 x1 x2) x3 := by
  funext i
  rw [val_main_v43_apply, val_main_v42_apply, dist_core]
  unfold distArray
  have h0 : (i 0).val < 8 := (i 0).isLt
  have h1 : (i 1).val < 16 := (i 1).isLt
  have h2 : (i 2).val < 256 := (i 2).isLt
  have h3 : (i 3).val < 128 := (i 3).isLt
  have ec : (⟨(idx_main_v42 (idx_main_v43 i) 0).val, by exact (idx_main_v42 (idx_main_v43 i) 0).isLt⟩ : Fin 256)
      = ⟨(i 2).val, by exact (i 2).isLt⟩ := Fin.ext (by
    show ((((i 2).val * 8 + (i 0).val) * 16 + (i 1).val) * 128 + (i 3).val) / 16384 = (i 2).val
    omega)
  have er : (⟨(idx_main_v42 (idx_main_v43 i) 1).val, by exact (idx_main_v42 (idx_main_v43 i) 1).isLt⟩ : Fin 128)
      = ⟨(i 0).val * 16 + (i 1).val, by omega⟩ := Fin.ext (by
    show ((((i 2).val * 8 + (i 0).val) * 16 + (i 1).val) * 128 + (i 3).val) / 128 % 128 = (i 0).val * 16 + (i 1).val
    omega)
  have en : (⟨(idx_main_v42 (idx_main_v43 i) 2).val, by exact (idx_main_v42 (idx_main_v43 i) 2).isLt⟩ : Fin 128)
      = ⟨(i 3).val, by exact (i 3).isLt⟩ := Fin.ext (by
    show ((((i 2).val * 8 + (i 0).val) * 16 + (i 1).val) * 128 + (i 3).val) % 128 = (i 3).val
    omega)
  rw [ec, er, en]

/-- The row maximum the reference's softmax subtracts, at a (batch, depth, slab) position: the fold of max from -inf
    over the 128 centres of -32 times the table. -/
theorem rowMax_fold (q : S8x16x256.Idx) :
    val_main_v46 (F := Ideal) x0 x1 x2 x3 q
      = (Finset.univ : Finset (Fin 128)).fold max (Ideal.ofBits .f32 0xFF800000#32) (fun l =>
          Ideal.ofBits .f32 0xC2000000#32 * val_main_v43 (F := Ideal) x0 x1 x2 x3
            (ix4 (⟨(q 0).val, by exact (q 0).isLt⟩ : Fin 8) (⟨(q 1).val, by exact (q 1).isLt⟩ : Fin 16)
              (⟨(q 2).val, by exact (q 2).isLt⟩ : Fin 256) l)) := by
  have h : S8x16x256x128.Reduces [3] S8x16x256 := by decide
  unfold val_main_v46
  rw [Host.reduce_eq_fold_single FloatOps.maximumf _ _ reducesTo_S8x16x256x128_S8x16x256_d3 h h_S_]
  show Finset.fold max (Ideal.ofBits .f32 0xFF800000#32) (val_main_v45 (F := Ideal) x0 x1 x2 x3 ∘ h.lift q)
    (Finset.univ : Finset (Fin 128)) = _
  refine congrArg (fun f => Finset.fold max (Ideal.ofBits .f32 0xFF800000#32) f (Finset.univ : Finset (Fin 128)))
    (funext fun l => ?_)
  show val_main_v45 (F := Ideal) x0 x1 x2 x3 (h.lift q l) = _
  rw [val_main_v45_apply, val_main_v44_apply, val_main_cst_8_apply]
  show Ideal.ofBits .f32 0xC2000000#32 * val_main_v43 (F := Ideal) x0 x1 x2 x3 (h.lift q l) = _
  exact congrArg (fun j => Ideal.ofBits .f32 0xC2000000#32 * val_main_v43 (F := Ideal) x0 x1 x2 x3 j)
    (funext fun a => Fin.ext (by match a with | ⟨0, _⟩ => rfl | ⟨1, _⟩ => rfl | ⟨2, _⟩ => rfl | ⟨3, _⟩ => rfl))

/-- -32 times the table with its row's maximum subtracted. -/
theorem shifted (j : S8x16x256x128.Idx) :
    val_main_v51 (F := Ideal) x0 x1 x2 x3 j
      = Ideal.ofBits .f32 0xC2000000#32 * val_main_v43 (F := Ideal) x0 x1 x2 x3 j
        - rowMax (fun l => Ideal.ofBits .f32 0xC2000000#32 * val_main_v43 (F := Ideal) x0 x1 x2 x3
            (ix4 (⟨(j 0).val, by exact (j 0).isLt⟩ : Fin 8) (⟨(j 1).val, by exact (j 1).isLt⟩ : Fin 16)
              (⟨(j 2).val, by exact (j 2).isLt⟩ : Fin 256) l)) := by
  rw [val_main_v51_apply, val_main_v50_apply, val_main_v49_apply, val_main_v48_apply, val_main_v47_apply, val_main_cst_10_apply, val_main_v45_apply, val_main_v44_apply, val_main_cst_8_apply, rowMax_fold]
  rfl

/-- THE REFERENCE'S SECOND RESULT is `softArray` of its first. -/
theorem soft_eq :
    val_main_v56 (F := Ideal) x0 x1 x2 x3 = softArray (val_main_v43 (F := Ideal) x0 x1 x2 x3) := by
  funext i
  rw [val_main_v56_apply, val_main_v55_apply, val_main_v54_apply, val_main_v53_apply, val_main_cst_11_apply]
  simp only [val_main_v52_apply, shifted]
  unfold softArray softRow
  have ei : i = ix4 (⟨(i 0).val, by exact (i 0).isLt⟩ : Fin 8) (⟨(i 1).val, by exact (i 1).isLt⟩ : Fin 16)
      (⟨(i 2).val, by exact (i 2).isLt⟩ : Fin 256) (⟨(i 3).val, by exact (i 3).isLt⟩ : Fin 128) :=
    funext fun a => Fin.ext (by match a with | ⟨0, _⟩ => rfl | ⟨1, _⟩ => rfl | ⟨2, _⟩ => rfl | ⟨3, _⟩ => rfl)
  have ek : ∀ l, idx_main_v53 (idx_main_v54 (idx_main_v55 i)) l
      = ix4 (⟨(i 0).val, by exact (i 0).isLt⟩ : Fin 8) (⟨(i 1).val, by exact (i 1).isLt⟩ : Fin 16)
          (⟨(i 2).val, by exact (i 2).isLt⟩ : Fin 256) l :=
    fun l => funext fun a => Fin.ext (by match a with | ⟨0, _⟩ => rfl | ⟨1, _⟩ => rfl | ⟨2, _⟩ => rfl | ⟨3, _⟩ => rfl)
  simp only [ek, Ideal.hostUnary_sqrt_def, Ideal.hostUnary_exp_def, Ideal.hostDivf_def, Ideal.maximumf_def, Ideal.subf_def, Ideal.mulf_def, Ideal.addf_def, Ideal.ofBits_def, Ideal.ofBits_zero_f32, zero_add]
  conv_lhs => rw [ei]

/-- The self-distance table: entry (c, r, n) is the distance of rows r and n of the centres' slab c. -/
theorem self_eq : val_main_v72 (F := Ideal) x3 = selfDist x3 := by
  funext i
  rw [val_main_v72_apply, val_main_v71_apply, val_main_v70_apply, val_main_cst_15_apply, val_main_v69_apply, val_main_v68_apply, val_main_v67_apply, val_main_cst_14_apply, val_main_v66_apply, val_main_v65_apply, val_main_v63_apply, val_main_v59_apply, val_main_v58_apply, val_main_cst_12_apply, val_main_v64_apply, val_main_v62_apply, val_main_v61_apply, val_main_cst_13_apply]
  have ea : ∀ k, idx_main_v58 (idx_main_v59 (idx_main_v63 i)) k
      = ix3 (⟨(i 0).val, by exact (i 0).isLt⟩ : Fin 256) (⟨(i 1).val, by exact (i 1).isLt⟩ : Fin 128) k :=
    fun k => funext fun a => Fin.ext (by match a with | ⟨0, _⟩ => rfl | ⟨1, _⟩ => rfl | ⟨2, _⟩ => rfl)
  have eb : ∀ k, idx_main_v61 (idx_main_v62 (idx_main_v64 i)) k
      = ix3 (⟨(i 0).val, by exact (i 0).isLt⟩ : Fin 256) (⟨(i 2).val, by exact (i 2).isLt⟩ : Fin 128) k :=
    fun k => funext fun a => Fin.ext (by match a with | ⟨0, _⟩ => rfl | ⟨1, _⟩ => rfl | ⟨2, _⟩ => rfl)
  have el : ∀ k, lidx_main_v66 i k
      = ix3 (⟨(i 0).val, by exact (i 0).isLt⟩ : Fin 256) (⟨(i 1).val, by exact (i 1).isLt⟩ : Fin 128) k :=
    fun k => funext fun a => Fin.ext (by match a with | ⟨0, _⟩ => rfl | ⟨1, _⟩ => rfl | ⟨2, _⟩ => rfl)
  have er : ∀ k, ridx_main_v66 i k
      = ix3 (⟨(i 0).val, by exact (i 0).isLt⟩ : Fin 256) (⟨(i 2).val, by exact (i 2).isLt⟩ : Fin 128) k :=
    fun k => funext fun a => Fin.ext (by match a with | ⟨0, _⟩ => rfl | ⟨1, _⟩ => rfl | ⟨2, _⟩ => rfl)
  unfold selfDist distEntry rootFloor sqDist slabRow
  simp only [val_main_v57_apply, val_main_v60_apply, Ideal.hostUnary_sqrt_def, Ideal.hostUnary_exp_def, Ideal.hostDivf_def, Ideal.maximumf_def, Ideal.subf_def, Ideal.mulf_def, Ideal.addf_def, Ideal.ofBits_def, Ideal.ofBits_zero_f32, zero_add, ea, eb, el, er]

end Cert.ReferenceIdeal.RefValue

end
-- ==== Proof.Finite.lean ====
/-
  What the precondition gives: every entry of the cluster centres is a real number. The precondition is the
  conjunction of four "all entries have absolute value below +inf" flags; its last conjunct, read at an entry, says
  max (x, -x) < +inf, which rules out both infinities.
-/
import proofs.«160886_j21612275434146_2_alg».proof.Pre_finite_inputs
import Idealize.ShloMosaic.Lib.ReduceAll
import Idealize.ShloMosaic.Lib.ValueIdx
import Idealize.ShloMosaic.PureOps.Ideal

noncomputable section

namespace Cert.Pre_finite_inputs.Reals

open Idealize.ShloMosaic Cert.Pre_finite_inputs

variable [Facts]
open Facts

instance : Subsingleton S_.Idx := ⟨fun a b => funext fun d => d.elim0⟩

/-- An extended real whose absolute value is below the +inf word is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of the fourth argument is a real number. -/
theorem arg3_real (a0 : FVec Ideal S8x16x28x28x256 .f32) (a1 a2 : FVec Ideal S256 .f32) (a3 : FVec Ideal S256x128x784 .f32)
    (h : fn (F := Ideal) a0 a1 a2 a3 = fun _ => 1#1) (i : S256x128x784.Idx) : ∃ r : ℝ, a3 i = (r : EReal) := by
  have h0 := congrFun h ValueIdx.ix0
  dsimp only [fn, fn_part1] at h0
  have h1 := (IntOp.andi_eq_one.1 h0).2
  have h2 := Host.reduce_andi_all _ _ _ _ _ h1 i
  exact real_of_abs_lt (a3 i) h2

end Cert.Pre_finite_inputs.Reals

end
-- ==== Proof.Claims.lean ====
/-
  The five claims. The three frames are the generated ones (the reference's is its generated run with the results
  dropped); the idealization rewrote nothing, so `preserves` is trivial. For `algebraic`: the kernel's run ends with
  its three results at `distArray`, `softArray` of it and `selfDistGuarded`, all of the launch memory; the
  reference's run ends with its results at the same `distArray` and `softArray`, and at `selfDist`; the memories
  agree on the arguments; and `selfDistGuarded = selfDist` on real entries, which the precondition gives for the
  cluster centres.
-/
import proofs.«160886_j21612275434146_2_alg».proof.Defs
import proofs.«160886_j21612275434146_2_alg».proof.Proof.Gen.Kernel
import proofs.«160886_j21612275434146_2_alg».proof.Proof.Gen.Kernel.Frame
import proofs.«160886_j21612275434146_2_alg».proof.Proof.Gen.KernelIdeal
import proofs.«160886_j21612275434146_2_alg».proof.Proof.Gen.KernelIdeal.Frame
import proofs.«160886_j21612275434146_2_alg».proof.Proof.Gen.ReferenceIdeal
import proofs.«160886_j21612275434146_2_alg».proof.Proof.Gen.Pre_finite_inputs
import proofs.«160886_j21612275434146_2_alg».proof.Proof.Gen.ReferenceIdeal.Run
import proofs.«160886_j21612275434146_2_alg».proof.Proof.Gen.ReferenceIdeal.Read
import proofs.«160886_j21612275434146_2_alg».proof.Proof.KernelValue
import proofs.«160886_j21612275434146_2_alg».proof.Proof.RefNorm
import proofs.«160886_j21612275434146_2_alg».proof.Proof.RefDist
import proofs.«160886_j21612275434146_2_alg».proof.Proof.Finite

noncomputable section

namespace Cert.Proof.Claims

open Idealize.ShloMosaic Idealize.ShloMosaic.TcCoe Idealize.SL.Sem Idealize.ShloMosaic.ValueIdx
open Cert.Spec

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => distArray (Cert.KernelIdeal.Whole.normOf m c) (m ((c : Thread Cert.KernelIdeal.nD Cert.KernelIdeal.τ).loc Cert.KernelIdeal.main_arg3)),
    fun c => softArray (distArray (Cert.KernelIdeal.Whole.normOf m c) (m ((c : Thread Cert.KernelIdeal.nD Cert.KernelIdeal.τ).loc Cert.KernelIdeal.main_arg3))),
    fun c => selfDistGuarded (m ((c : Thread Cert.KernelIdeal.nD Cert.KernelIdeal.τ).loc Cert.KernelIdeal.main_arg3)),
    Cert.KernelIdeal.Whole.run m ρ, ?_⟩
  refine (θ_run Cert.ReferenceIdeal.defs _ _).mono (fun _ h c => ?_) (Cert.ReferenceIdeal.Value.run (F := Ideal) m' ρ')
  have hreal : ∀ i, ∃ r : ℝ, m ((c : Thread Cert.KernelIdeal.nD Cert.KernelIdeal.τ).loc Cert.KernelIdeal.main_arg3) i = (r : EReal) :=
    fun i => Cert.Pre_finite_inputs.Reals.arg3_real _ _ _ _ (hpre c) i
  obtain ⟨a0, a1, a2, a3⟩ := hagree c
  refine ⟨(h c).1.trans ?_, (h c).2.1.trans ?_, (h c).2.2.1.trans ?_, (h c).2.2.2⟩
  · rw [Cert.ReferenceIdeal.Read.val_main_v43_eq, Cert.ReferenceIdeal.RefValue.dist_eq, Cert.ReferenceIdeal.RefValue.norm_eq,
      a0, a1, a2, a3]
  · rw [Cert.ReferenceIdeal.Read.val_main_v56_eq, Cert.ReferenceIdeal.RefValue.soft_eq, Cert.ReferenceIdeal.RefValue.dist_eq,
      Cert.ReferenceIdeal.RefValue.norm_eq, a0, a1, a2, a3]
  · rw [Cert.ReferenceIdeal.Read.val_main_v72_eq, Cert.ReferenceIdeal.RefValue.self_eq, a3]
    exact (selfDistGuarded_eq _ hreal).symm

end Cert.Proof.Claims

end
-- ==== Proof.lean ====
/-
  The certificate of the three-call kernel (LayerNorm with a re-layout; distances to the cluster centres and their
  softmax; distances among the cluster centres) against its one-program reference, over the extended reals.
  The two programs apply the same operations in the same order everywhere but on the diagonal of the last table, where
  the kernel writes the floored root of zero and the reference that of |r|^2 + |r|^2 - 2 |r|^2, which is zero for the
  real entries the precondition grants. The pieces: Proof/Spec.lean and Proof/SpecArrays.lean (the mathematics, per
  row and per array), Proof/Reads*.lean (each call's block at an entry), Proof/Array*.lean (each call's result array),
  Proof/KernelRun.lean and Proof/KernelValue.lean (the kernel's run, read), Proof/RefNorm.lean and Proof/RefDist.lean
  (the reference's results), Proof/Finite.lean (the precondition), Proof/Claims.lean (the five claims).
-/
import proofs.«160886_j21612275434146_2_alg».proof.Defs
import proofs.«160886_j21612275434146_2_alg».proof.Proof.Gen.Kernel
import proofs.«160886_j21612275434146_2_alg».proof.Proof.Gen.Kernel.Skeleton
import proofs.«160886_j21612275434146_2_alg».proof.Proof.Gen.Kernel.Launch
import proofs.«160886_j21612275434146_2_alg».proof.Proof.Gen.Kernel.Points
import proofs.«160886_j21612275434146_2_alg».proof.Proof.Gen.Kernel.Frame
import proofs.«160886_j21612275434146_2_alg».proof.Proof.Gen.KernelIdeal
import proofs.«160886_j21612275434146_2_alg».proof.Proof.Gen.KernelIdeal.Skeleton
import proofs.«160886_j21612275434146_2_alg».proof.Proof.Gen.KernelIdeal.Launch
import proofs.«160886_j21612275434146_2_alg».proof.Proof.Gen.KernelIdeal.Points
import proofs.«160886_j21612275434146_2_alg».proof.Proof.Gen.KernelIdeal.Frame
import proofs.«160886_j21612275434146_2_alg».proof.Proof.Gen.ReferenceIdeal
import proofs.«160886_j21612275434146_2_alg».proof.Proof.Gen.Pre_finite_inputs
import proofs.«160886_j21612275434146_2_alg».proof.Proof.Gen.ReferenceIdeal.Run
import proofs.«160886_j21612275434146_2_alg».proof.Proof.Gen.ReferenceIdeal.Read
import proofs.«160886_j21612275434146_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
